-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128 .f32) (main_arg7 : FVec F S128x64 .f32) (main_arg8 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S32x128 : Shape := ⟨2, ![32, 128]⟩
abbrev S50000x1 : Shape := ⟨2, ![50000, 1]⟩
abbrev S32 : Shape := ⟨1, ![32]⟩
abbrev S32x1 : Shape := ⟨2, ![32, 1]⟩
abbrev S32x64 : Shape := ⟨2, ![32, 64]⟩
abbrev S1x64 : Shape := ⟨2, ![1, 64]⟩

abbrev nBuf : Space → Nat
  | .hbm => 102
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000, .i32⟩
  | .hbm, ⟨14, _⟩ => ⟨S850000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x1, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x128, .f32⟩
  | .hbm, ⟨77, _⟩ => ⟨S850000x1, .f32⟩
  | .hbm, ⟨78, _⟩ => ⟨S850000x128, .f32⟩
  | .hbm, ⟨79, _⟩ => ⟨S850000x128, .f32⟩
  | .hbm, ⟨80, _⟩ => ⟨S_, .f32⟩
  | .hbm, ⟨81, _⟩ => ⟨S50000x128, .f32⟩
  | .hbm, ⟨82, _⟩ => ⟨S850000x1, .i32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S32x128, .f32⟩
  | .hbm, ⟨87, _⟩ => ⟨S50000x1, .i32⟩
  | .hbm, ⟨88, _⟩ => ⟨S32x128, .f32⟩
  | .hbm, ⟨89, _⟩ => ⟨S_, .f32⟩
  | .hbm, ⟨90, _⟩ => ⟨S50000, .f32⟩
  | .hbm, ⟨91, _⟩ => ⟨S_, .f32⟩
  | .hbm, ⟨92, _⟩ => ⟨S32, .f32⟩
  | .hbm, ⟨93, _⟩ => ⟨S50000x1, .i32⟩
  | .hbm, ⟨94, _⟩ => ⟨S32, .f32⟩
  | .hbm, ⟨95, _⟩ => ⟨S_, .f32⟩
  | .hbm, ⟨96, _⟩ => ⟨S32, .f32⟩
  | .hbm, ⟨97, _⟩ => ⟨S32, .f32⟩
  | .hbm, ⟨98, _⟩ => ⟨S32x1, .f32⟩
  | .hbm, ⟨99, _⟩ => ⟨S32x128, .f32⟩
  | .hbm, ⟨100, _⟩ => ⟨S32x128, .f32⟩
  | .hbm, ⟨101, _⟩ => ⟨S32x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | .local _ .vmem, ⟨20, _⟩ => ⟨S32x128, .f32⟩
  | .local _ .vmem, ⟨21, _⟩ => ⟨S128x64, .f32⟩
  | .local _ .vmem, ⟨22, _⟩ => ⟨S64, .f32⟩
  | .local _ .vmem, ⟨23, _⟩ => ⟨S32x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_c_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_cst_14 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_15 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S32x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S32x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  shapeCasts_S5000x128_S5000x128 : S5000x128.ShapeCasts S5000x128
  bcast_S_S32x128 : S_.BroadcastsInDim S32x128 (![] : Fin 0 → Fin S32x128.rank)
  bcast_S50000_S50000x1_0 : S50000.BroadcastsInDim S50000x1 (![0] : Fin 1 → Fin S50000x1.rank)
  bcast_S_S32 : S_.BroadcastsInDim S32 (![] : Fin 0 → Fin S32.rank)
  bcast_S32_S32x1_0 : S32.BroadcastsInDim S32x1 (![0] : Fin 1 → Fin S32x1.rank)
  bcast_S32x1_S32x128_0_1 : S32x1.BroadcastsInDim S32x128 (![0, 1] : Fin 2 → Fin S32x128.rank)
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S32x64 : S1x64.Broadcasts S32x64
  inb_S32x64_S32x64_0_0 : ∀ a, (![0, 0] : Fin 2 → Nat) a + S32x64.size a ≤ S32x64.size a
  h_S32x64 : 0 < S32x64.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S32x128_S50000x1_S50000x128_1_0_0_1_wf : ScatterDims.WF S32x128 S50000x1 S50000x128 [1] [0] [0] 1
  scatter_S32_S50000x1_S50000_n_0_0_1_wf : ScatterDims.WF S32 S50000x1 S50000 [] [0] [0] 1
  dot_S32x128_S128x64_S32x64_1_0_0_1_n_n_wf : DotDims.WF S32x128 S128x64 S32x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S32x128.size a ≤ S32x128.size a
  hwx4_0 : ∀ i : grid4.Coords, EltTy.bits .f32 = 32 ∨ (Rect.block (s := S32x128) S32x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64.size a ≤ S64.size a
  hwx4_2 : ∀ i : grid4.Coords, EltTy.bits .f32 = 32 ∨ (Rect.block (s := S64) S64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32x64.size a ≤ S32x64.size a
  hwx4_3 : ∀ i : grid4.Coords, EltTy.bits .f32 = 32 ∨ (Rect.block (s := S32x64) S32x64.size (cc4_transform_3 i) (hinb4_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S32x128_S50000x1_S50000x128_1_0_0_1 : ScatterDims S32x128 S50000x1 S50000x128 where
  updateWindowDims := [1]
  insertedWindowDims := [0]
  scatterDimsToOperandDims := [0]
  indexVectorDim := 1
  wf := scatter_S32x128_S50000x1_S50000x128_1_0_0_1_wf
def scatter_S32_S50000x1_S50000_n_0_0_1 : ScatterDims S32 S50000x1 S50000 where
  updateWindowDims := []
  insertedWindowDims := [0]
  scatterDimsToOperandDims := [0]
  indexVectorDim := 1
  wf := scatter_S32_S50000x1_S50000_n_0_0_1_wf
def dot_S32x128_S128x64_S32x64_1_0_0_1_n_n : DotDims S32x128 S128x64 S32x64 where
  lhsContracting := [1]
  rhsContracting := [0]
  lhsNonContracting := [0]
  rhsNonContracting := [1]
  lhsBatch := []
  rhsBatch := []
  wf := dot_S32x128_S128x64_S32x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v71) S32x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg8) S64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v72) S32x64.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S32x128 : Shape := ⟨2, ![32, 128]⟩
abbrev S50000x1 : Shape := ⟨2, ![50000, 1]⟩
abbrev S32 : Shape := ⟨1, ![32]⟩
abbrev S32x1 : Shape := ⟨2, ![32, 1]⟩
abbrev S32x64 : Shape := ⟨2, ![32, 64]⟩
abbrev S1x64 : Shape := ⟨2, ![1, 64]⟩

abbrev nBuf : Space → Nat
  | .hbm => 151
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S1x800000, .i32⟩
  | 10 => ⟨S800000, .i32⟩
  | 11 => ⟨S1x800000, .i32⟩
  | 12 => ⟨S800000, .i32⟩
  | 13 => ⟨S50000x128, .f32⟩
  | 14 => ⟨S50000, .i32⟩
  | 15 => ⟨S850000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x128, .f32⟩
  | 59 => ⟨S850000x1, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x128, .f32⟩
  | 73 => ⟨S50000, .i32⟩
  | 74 => ⟨S850000, .i32⟩
  | 75 => ⟨S850000, .i32⟩
  | 76 => ⟨S_, .f32⟩
  | 77 => ⟨S850000, .f32⟩
  | 78 => ⟨S_, .f32⟩
  | 79 => ⟨S50000, .f32⟩
  | 80 => ⟨S850000x1, .i32⟩
  | 81 => ⟨S50000, .f32⟩
  | 82 => ⟨S_, .f32⟩
  | 83 => ⟨S50000, .f32⟩
  | 84 => ⟨S50000, .i1⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000, .f32⟩
  | 108 => ⟨S850000, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000x128, .f32⟩
  | 118 => ⟨S850000x1, .f32⟩
  | 119 => ⟨S850000x128, .f32⟩
  | 120 => ⟨S850000x128, .f32⟩
  | 121 => ⟨S_, .f32⟩
  | 122 => ⟨S50000x128, .f32⟩
  | 123 => ⟨S850000x1, .i32⟩
  | 124 => ⟨S50000x128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S_, .f32⟩
  | 1 => ⟨S50000x128, .f32⟩
  | 2 => ⟨S50000x128, .f32⟩
  | 3 => ⟨S_, .f32⟩
  | 4 => ⟨S32x128, .f32⟩
  | 5 => ⟨S50000x1, .i32⟩
  | 6 => ⟨S32x128, .f32⟩
  | 7 => ⟨S_, .f32⟩
  | 8 => ⟨S50000, .f32⟩
  | 9 => ⟨S_, .f32⟩
  | 10 => ⟨S32, .f32⟩
  | 11 => ⟨S50000x1, .i32⟩
  | 12 => ⟨S32, .f32⟩
  | 13 => ⟨S_, .f32⟩
  | 14 => ⟨S32, .f32⟩
  | 15 => ⟨S32, .f32⟩
  | 16 => ⟨S32x1, .f32⟩
  | 17 => ⟨S32x128, .f32⟩
  | 18 => ⟨S32x128, .f32⟩
  | 19 => ⟨S32x64, .f32⟩
  | 20 => ⟨S1x64, .f32⟩
  | 21 => ⟨S32x64, .f32⟩
  | 22 => ⟨S32x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v59 : Ref sig .tc := ⟨.hbm, 89, rfl⟩
abbrev main_c_13 : Ref sig .tc := ⟨.hbm, 90, rfl⟩
abbrev main_v60 : Ref sig .tc := ⟨.hbm, 91, rfl⟩
abbrev main_v61 : Ref sig .tc := ⟨.hbm, 92, rfl⟩
abbrev main_c_14 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_15 : Ref sig .tc := ⟨.hbm, 99, rfl⟩
abbrev main_v67 : Ref sig .tc := ⟨.hbm, 100, rfl⟩
abbrev main_v68 : Ref sig .tc := ⟨.hbm, 101, rfl⟩
abbrev main_c_16 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_17 : Ref sig .tc := ⟨.hbm, 109, rfl⟩
abbrev main_v75 : Ref sig .tc := ⟨.hbm, 110, rfl⟩
abbrev main_v76 : Ref sig .tc := ⟨.hbm, 111, rfl⟩
abbrev main_c_18 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_19 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_call3_cst : Ref sig .tc := ⟨.hbm, 128, rfl⟩
abbrev main_call3_v0 : Ref sig .tc := ⟨.hbm, 129, rfl⟩
abbrev main_v91 : Ref sig .tc := ⟨.hbm, 130, rfl⟩
abbrev main_cst_20 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_21 : Ref sig .tc := ⟨.hbm, 135, rfl⟩
abbrev main_v95 : Ref sig .tc := ⟨.hbm, 136, rfl⟩
abbrev main_cst_22 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_23 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S32x128 : S_.BroadcastsInDim S32x128 (![] : Fin 0 → Fin S32x128.rank)
  bcast_S50000_S50000x1_0 : S50000.BroadcastsInDim S50000x1 (![0] : Fin 1 → Fin S50000x1.rank)
  bcast_S_S32 : S_.BroadcastsInDim S32 (![] : Fin 0 → Fin S32.rank)
  bcast_S32_S32x1_0 : S32.BroadcastsInDim S32x1 (![0] : Fin 1 → Fin S32x1.rank)
  bcast_S32x1_S32x128_0_1 : S32x1.BroadcastsInDim S32x128 (![0, 1] : Fin 2 → Fin S32x128.rank)
  bcast_S64_S1x64_1 : S64.BroadcastsInDim S1x64 (![1] : Fin 1 → Fin S1x64.rank)
  bcast_S1x64_S32x64_0_1 : S1x64.BroadcastsInDim S32x64 (![0, 1] : Fin 2 → Fin S32x64.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S32x128_S50000x1_S50000x128_1_0_0_1_wf : ScatterDims.WF S32x128 S50000x1 S50000x128 [1] [0] [0] 1
  scatter_S32_S50000x1_S50000_n_0_0_1_wf : ScatterDims.WF S32 S50000x1 S50000 [] [0] [0] 1
  dot_S32x128_S128x64_S32x64_1_0_0_1_n_n_wf : DotDims.WF S32x128 S128x64 S32x64 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S32x128_S50000x1_S50000x128_1_0_0_1 : ScatterDims S32x128 S50000x1 S50000x128 where
  updateWindowDims := [1]
  insertedWindowDims := [0]
  scatterDimsToOperandDims := [0]
  indexVectorDim := 1
  wf := scatter_S32x128_S50000x1_S50000x128_1_0_0_1_wf
def scatter_S32_S50000x1_S50000_n_0_0_1 : ScatterDims S32 S50000x1 S50000 where
  updateWindowDims := []
  insertedWindowDims := [0]
  scatterDimsToOperandDims := [0]
  indexVectorDim := 1
  wf := scatter_S32_S50000x1_S50000_n_0_0_1_wf
def dot_S32x128_S128x64_S32x64_1_0_0_1_n_n : DotDims S32x128 S128x64 S32x64 where
  lhsContracting := [1]
  rhsContracting := [0]
  lhsNonContracting := [0]
  rhsNonContracting := [1]
  lhsBatch := []
  rhsBatch := []
  wf := dot_S32x128_S128x64_S32x64_1_0_0_1_n_n_wf

class Facts : Prop extends Facts₀ where

variable [Facts]
-- ==== Proof.LaunchValue.lean ====
/-
  The kernel program's run with its result named.

  The program is five kernel launches among stretches of host operations. Its run is the chain of those
  segments from the launch memory; after the last segment every buffer of a core holds the last boundary's
  contents `W11`. Here that final state is read at the result buffer as well as at the nine arguments: the
  result ends at `W11` read at the result, each argument as launched.
-/
import proofs.«173079_j13039520711474_1_alg».proof.Proof.Gen.KernelIdeal.Frame

set_option maxRecDepth 16384

noncomputable section

namespace Cert.Gcn.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates without a fault; the result buffer ends at the last
    boundary's contents and the arguments end as launched. -/
theorem run : θ_run defs (onTc (τ := τ) (main (F := F))) ⟨m, fun _ => 0, ρ⟩ (fun r => ∀ c : Dev nD,
      r.2.mem ((c.tc : Thread nD τ).loc main_v72) = W11 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v72 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c)⟩)

end Cert.Gcn.Launch

end
-- ==== Proof.Model.lean ====
/-
  A two-layer graph convolution with mean pooling and a linear read-out, as whole-array functions.

  From an edge list (two rows of node numbers) every node gets a self-loop appended: the message sources
  `srcs` and destinations `dsts` are the edge rows followed by 0 … N-1. A node's degree is the number of
  messages it receives, `dinv` its inverse square root where the degree is positive and 0 elsewhere, and
  the weight of a message is `dinv(source) · dinv(destination)`. One layer multiplies the node features by a
  weight matrix (`dense`), sends each row along the messages scaled by the message weight and adds what
  arrives at each node (`aggregate`), adds the bias row and keeps the positive part (`biasRelu`). The
  nodes of each graph are then averaged (`pool`: the sum of the rows of a graph over max(count, 1)) and the
  read-out is a matrix product plus a bias row (`head`). A negative node number is read from the end
  (`wrap`), as array indexing does.
-/
import proofs.«173079_j13039520711474_1_alg».proof.ReferenceIdeal

noncomputable section

namespace Cert.Gcn

open Idealize.ShloMosaic Cert.ReferenceIdeal

variable {F : FTy → Type} [FloatOps F] [Facts₀]
open Facts₀

/-- Message sources: edge row 0, then every node once (its self-loop). -/
def srcs (ei : (⟨S2x800000, .i32⟩ : BufTy).Contents (Elt F)) : (⟨S850000, .i32⟩ : BufTy).Contents (Elt F) :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- Message destinations: edge row 1, then every node once. -/
def dsts (ei : (⟨S2x800000, .i32⟩ : BufTy).Contents (Elt F)) : (⟨S850000, .i32⟩ : BufTy).Contents (Elt F) :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- Node numbers as a column of gather indices, a negative number counted from the end. -/
def wrap (v : (⟨S850000, .i32⟩ : BufTy).Contents (Elt F)) : (⟨S850000x1, .i32⟩ : BufTy).Contents (Elt F) :=
  broadcastInDim S850000x1 ![0] bcast_S850000_S850000x1_0 (select (cmpi .slt v (broadcastInDim S850000 ![] bcast_S_S850000 (constantI S_ 32 0#32))) (addi v (broadcastInDim S850000 ![] bcast_S_S850000 (constantI S_ 32 50000#32))) v)

/-- Node numbers as a column of scatter indices. -/
def col (v : (⟨S850000, .i32⟩ : BufTy).Contents (Elt F)) : (⟨S850000x1, .i32⟩ : BufTy).Contents (Elt F) :=
  broadcastInDim S850000x1 ![0] bcast_S850000_S850000x1_0 v

/-- The number of messages each node receives. -/
def degree (ei : (⟨S2x800000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (col (dsts ei)) (broadcastInDim S850000 ![] bcast_S_S850000 (constant S_ .f32 0x3F800000#32))

/-- Where the degree is positive. -/
def degMask (ei : (⟨S2x800000, .i32⟩ : BufTy).Contents (Elt F)) : (⟨S50000, .i1⟩ : BufTy).Contents (Elt F) :=
  cmpf .ogt (degree ei) (broadcastInDim S50000 ![] bcast_S_S50000 (constant S_ .f32 0x00000000#32))

/-- The inverse square root of the degree. -/
def degRsqrt (ei : (⟨S2x800000, .i32⟩ : BufTy).Contents (Elt F)) : (⟨S50000, .f32⟩ : BufTy).Contents (Elt F) :=
  Host.rsqrt (degree ei)

/-- The scalar 0. -/
def zeroScalar : (⟨S_, .f32⟩ : BufTy).Contents (Elt F) := constant S_ .f32 0x00000000#32

/-- `v` where the mask holds, the scalar `z` elsewhere. -/
def whereElse (mask : (⟨S50000, .i1⟩ : BufTy).Contents (Elt F)) (v : (⟨S50000, .f32⟩ : BufTy).Contents (Elt F)) (z : (⟨S_, .f32⟩ : BufTy).Contents (Elt F)) : (⟨S50000, .f32⟩ : BufTy).Contents (Elt F) :=
  select mask v (broadcastInDim S50000 ![] bcast_S_S50000 (id z))

/-- The inverse square root of the degree where it is positive, 0 elsewhere. -/
def dinv (ei : (⟨S2x800000, .i32⟩ : BufTy).Contents (Elt F)) : (⟨S50000, .f32⟩ : BufTy).Contents (Elt F) :=
  whereElse (degMask ei) (degRsqrt ei) zeroScalar

/-- The weight of each message from a per-node factor `dv`: the factor at its source times the factor at its destination. -/
def msgWeights (dv : (⟨S50000, .f32⟩ : BufTy).Contents (Elt F)) (s d : (⟨S850000, .i32⟩ : BufTy).Contents (Elt F)) : (⟨S850000, .f32⟩ : BufTy).Contents (Elt F) :=
  mulf (Host.gather gather_S50000_S850000x1_S850000_n_0_n_n_0_1_1 dv (wrap s)) (Host.gather gather_S50000_S850000x1_S850000_n_0_n_n_0_1_1 dv (wrap d))

/-- The weight of each message: `dinv` at its source times `dinv` at its destination. -/
def weights (ei : (⟨S2x800000, .i32⟩ : BufTy).Contents (Elt F)) : (⟨S850000, .f32⟩ : BufTy).Contents (Elt F) :=
  msgWeights (dinv ei) (srcs ei) (dsts ei)

/-- Node features times a weight matrix. -/
def dense (x : (⟨S50000x128, .f32⟩ : BufTy).Contents (Elt F)) (w : (⟨S128x128, .f32⟩ : BufTy).Contents (Elt F)) : (⟨S50000x128, .f32⟩ : BufTy).Contents (Elt F) :=
  Host.dotGeneral dot_S50000x128_S128x128_S50000x128_1_0_0_1_n_n none x w

/-- Each row sent along the messages, scaled by the message weights `nrm`, and added up at the destinations. -/
def aggregate (s d : (⟨S850000, .i32⟩ : BufTy).Contents (Elt F)) (nrm : (⟨S850000, .f32⟩ : BufTy).Contents (Elt F)) (xw : (⟨S50000x128, .f32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32)) (col d) (mulf (Host.gather gather_S50000x128_S850000x1_S850000x128_1_0_n_n_0_1_1128 xw (wrap s)) (broadcastInDim S850000x128 ![0, 1] bcast_S850000x1_S850000x128_0_1 (broadcastInDim S850000x1 ![0] bcast_S850000_S850000x1_0 nrm)))

/-- The bias row added to every node's row, then the positive part. -/
def biasRelu (agg : (⟨S50000x128, .f32⟩ : BufTy).Contents (Elt F)) (b : (⟨S128, .f32⟩ : BufTy).Contents (Elt F)) : (⟨S50000x128, .f32⟩ : BufTy).Contents (Elt F) :=
  maximumf (addf agg (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- One graph-convolution layer. -/
def layer (ei : (⟨S2x800000, .i32⟩ : BufTy).Contents (Elt F)) (x : (⟨S50000x128, .f32⟩ : BufTy).Contents (Elt F)) (w : (⟨S128x128, .f32⟩ : BufTy).Contents (Elt F)) (b : (⟨S128, .f32⟩ : BufTy).Contents (Elt F)) : (⟨S50000x128, .f32⟩ : BufTy).Contents (Elt F) :=
  biasRelu (aggregate (srcs ei) (dsts ei) (weights ei) (dense x w)) b

/-- The mean of each graph's node rows: their sum over max(their number, 1). -/
def pool (batch : (⟨S50000, .i32⟩ : BufTy).Contents (Elt F)) (h : (⟨S50000x128, .f32⟩ : BufTy).Contents (Elt F)) : (⟨S32x128, .f32⟩ : BufTy).Contents (Elt F) :=
  Host.divf (Host.scatterAdd scatter_S32x128_S50000x1_S50000x128_1_0_0_1 (broadcastInDim S32x128 ![] bcast_S_S32x128 (constant S_ .f32 0x00000000#32)) (broadcastInDim S50000x1 ![0] bcast_S50000_S50000x1_0 batch) h) (broadcastInDim S32x128 ![0, 1] bcast_S32x1_S32x128_0_1 (broadcastInDim S32x1 ![0] bcast_S32_S32x1_0 (maximumf (Host.scatterAdd scatter_S32_S50000x1_S50000_n_0_0_1 (broadcastInDim S32 ![] bcast_S_S32 (constant S_ .f32 0x00000000#32)) (broadcastInDim S50000x1 ![0] bcast_S50000_S50000x1_0 batch) (broadcastInDim S50000 ![] bcast_S_S50000 (constant S_ .f32 0x3F800000#32))) (broadcastInDim S32 ![] bcast_S_S32 (constant S_ .f32 0x3F800000#32)))))

/-- The read-out: pooled rows times a weight matrix, plus a bias row. -/
def head (p : (⟨S32x128, .f32⟩ : BufTy).Contents (Elt F)) (w : (⟨S128x64, .f32⟩ : BufTy).Contents (Elt F)) (b : (⟨S64, .f32⟩ : BufTy).Contents (Elt F)) : (⟨S32x64, .f32⟩ : BufTy).Contents (Elt F) :=
  addf (Host.dotGeneral dot_S32x128_S128x64_S32x64_1_0_0_1_n_n none p w) (broadcastInDim S32x64 ![0, 1] bcast_S1x64_S32x64_0_1 (broadcastInDim S1x64 ![1] bcast_S64_S1x64_1 b))

/-- The whole network. -/
def forward (x : (⟨S50000x128, .f32⟩ : BufTy).Contents (Elt F)) (ei : (⟨S2x800000, .i32⟩ : BufTy).Contents (Elt F)) (batch : (⟨S50000, .i32⟩ : BufTy).Contents (Elt F))
    (w1 : (⟨S128x128, .f32⟩ : BufTy).Contents (Elt F)) (b1 : (⟨S128, .f32⟩ : BufTy).Contents (Elt F)) (w2 : (⟨S128x128, .f32⟩ : BufTy).Contents (Elt F)) (b2 : (⟨S128, .f32⟩ : BufTy).Contents (Elt F))
    (wfc : (⟨S128x64, .f32⟩ : BufTy).Contents (Elt F)) (bfc : (⟨S64, .f32⟩ : BufTy).Contents (Elt F)) : (⟨S32x64, .f32⟩ : BufTy).Contents (Elt F) :=
  head (pool batch (layer ei (layer ei x w1 b1) w2 b2)) wfc bfc

end Cert.Gcn

end
-- ==== Proof.Stretches.lean ====
/-
  The host operations between the kernel launches, one stretch at a time.

  Each stretch of host operations is a straight line in single-assignment form, so after it a buffer it writes
  holds that operation's function of its operands' contents, and a buffer it does not write holds what it held.
  Read from any contents `W` at the stretch's start: the first stretch builds the message sources and
  destinations, the degree's positivity mask and inverse square root; the second picks the inverse square root
  where the mask holds and 0 elsewhere; the third multiplies that factor at a message's two ends; the stretch after
  a matrix product gathers its rows along the messages, scales them and adds them up at the destinations; the last
  stretch averages the node rows of each graph.
-/
import proofs.«173079_j13039520711474_1_alg».proof.Proof.Gen.KernelIdeal.Launch
import proofs.«173079_j13039520711474_1_alg».proof.Proof.Gen.ReferenceIdeal
import proofs.«173079_j13039520711474_1_alg».proof.Proof.Model
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo

namespace Cert.Gcn.Stretch

open Cert.KernelIdeal Cert.KernelIdeal.Gen

variable (W : Valuation τ sig (Elt Ideal))

/-! ## `hostOps0` -/

theorem s0_v5 : StableHlo.after (hostOps0 (F := Ideal)) W (Proc.devRef .tc main_v5) = Cert.Gcn.srcs (F := Ideal) (W (Proc.devRef .tc main_arg1)) := by
  after_results
  rfl

theorem s0_v6 : StableHlo.after (hostOps0 (F := Ideal)) W (Proc.devRef .tc main_v6) = Cert.Gcn.dsts (F := Ideal) (W (Proc.devRef .tc main_arg1)) := by
  after_results
  rfl

theorem s0_v12 : StableHlo.after (hostOps0 (F := Ideal)) W (Proc.devRef .tc main_v12) = Cert.Gcn.degMask (F := Ideal) (W (Proc.devRef .tc main_arg1)) := by
  after_results
  rfl

theorem s0_v13 : StableHlo.after (hostOps0 (F := Ideal)) W (Proc.devRef .tc main_v13) = Cert.Gcn.degRsqrt (F := Ideal) (W (Proc.devRef .tc main_arg1)) := by
  after_results
  rfl

theorem s0_cst_2 : StableHlo.after (hostOps0 (F := Ideal)) W (Proc.devRef .tc main_cst_2) = Cert.Gcn.zeroScalar (F := Ideal) := by
  after_results
  rfl

theorem s0_arg0 : StableHlo.after (hostOps0 (F := Ideal)) W (Proc.devRef .tc main_arg0) = W (Proc.devRef .tc main_arg0) := by
  after_results

theorem s0_arg2 : StableHlo.after (hostOps0 (F := Ideal)) W (Proc.devRef .tc main_arg2) = W (Proc.devRef .tc main_arg2) := by
  after_results

theorem s0_arg3 : StableHlo.after (hostOps0 (F := Ideal)) W (Proc.devRef .tc main_arg3) = W (Proc.devRef .tc main_arg3) := by
  after_results

theorem s0_arg4 : StableHlo.after (hostOps0 (F := Ideal)) W (Proc.devRef .tc main_arg4) = W (Proc.devRef .tc main_arg4) := by
  after_results

theorem s0_arg5 : StableHlo.after (hostOps0 (F := Ideal)) W (Proc.devRef .tc main_arg5) = W (Proc.devRef .tc main_arg5) := by
  after_results

theorem s0_arg6 : StableHlo.after (hostOps0 (F := Ideal)) W (Proc.devRef .tc main_arg6) = W (Proc.devRef .tc main_arg6) := by
  after_results

theorem s0_arg7 : StableHlo.after (hostOps0 (F := Ideal)) W (Proc.devRef .tc main_arg7) = W (Proc.devRef .tc main_arg7) := by
  after_results

theorem s0_arg8 : StableHlo.after (hostOps0 (F := Ideal)) W (Proc.devRef .tc main_arg8) = W (Proc.devRef .tc main_arg8) := by
  after_results

/-! ## `hostOps0_1` -/

theorem s01_v14 : StableHlo.after (hostOps0_1 (F := Ideal)) W (Proc.devRef .tc main_v14) = Cert.Gcn.whereElse (F := Ideal) (W (Proc.devRef .tc main_v12)) (W (Proc.devRef .tc main_v13)) (W (Proc.devRef .tc main_cst_2)) := by
  after_results
  rfl

theorem s01_v5 : StableHlo.after (hostOps0_1 (F := Ideal)) W (Proc.devRef .tc main_v5) = W (Proc.devRef .tc main_v5) := by
  after_results

theorem s01_v6 : StableHlo.after (hostOps0_1 (F := Ideal)) W (Proc.devRef .tc main_v6) = W (Proc.devRef .tc main_v6) := by
  after_results

theorem s01_arg0 : StableHlo.after (hostOps0_1 (F := Ideal)) W (Proc.devRef .tc main_arg0) = W (Proc.devRef .tc main_arg0) := by
  after_results

theorem s01_arg2 : StableHlo.after (hostOps0_1 (F := Ideal)) W (Proc.devRef .tc main_arg2) = W (Proc.devRef .tc main_arg2) := by
  after_results

theorem s01_arg3 : StableHlo.after (hostOps0_1 (F := Ideal)) W (Proc.devRef .tc main_arg3) = W (Proc.devRef .tc main_arg3) := by
  after_results

theorem s01_arg4 : StableHlo.after (hostOps0_1 (F := Ideal)) W (Proc.devRef .tc main_arg4) = W (Proc.devRef .tc main_arg4) := by
  after_results

theorem s01_arg5 : StableHlo.after (hostOps0_1 (F := Ideal)) W (Proc.devRef .tc main_arg5) = W (Proc.devRef .tc main_arg5) := by
  after_results

theorem s01_arg6 : StableHlo.after (hostOps0_1 (F := Ideal)) W (Proc.devRef .tc main_arg6) = W (Proc.devRef .tc main_arg6) := by
  after_results

theorem s01_arg7 : StableHlo.after (hostOps0_1 (F := Ideal)) W (Proc.devRef .tc main_arg7) = W (Proc.devRef .tc main_arg7) := by
  after_results

theorem s01_arg8 : StableHlo.after (hostOps0_1 (F := Ideal)) W (Proc.devRef .tc main_arg8) = W (Proc.devRef .tc main_arg8) := by
  after_results

/-! ## `hostOps0_2` -/

set_option maxHeartbeats 2000000 in
theorem s02_v29 : StableHlo.after (hostOps0_2 (F := Ideal)) W (Proc.devRef .tc main_v29) = Cert.Gcn.msgWeights (F := Ideal) (W (Proc.devRef .tc main_v14)) (W (Proc.devRef .tc main_v5)) (W (Proc.devRef .tc main_v6)) := by
  after_results_simp
  rfl

theorem s02_v5 : StableHlo.after (hostOps0_2 (F := Ideal)) W (Proc.devRef .tc main_v5) = W (Proc.devRef .tc main_v5) := by
  after_results

theorem s02_v6 : StableHlo.after (hostOps0_2 (F := Ideal)) W (Proc.devRef .tc main_v6) = W (Proc.devRef .tc main_v6) := by
  after_results

theorem s02_arg0 : StableHlo.after (hostOps0_2 (F := Ideal)) W (Proc.devRef .tc main_arg0) = W (Proc.devRef .tc main_arg0) := by
  after_results

theorem s02_arg2 : StableHlo.after (hostOps0_2 (F := Ideal)) W (Proc.devRef .tc main_arg2) = W (Proc.devRef .tc main_arg2) := by
  after_results

theorem s02_arg3 : StableHlo.after (hostOps0_2 (F := Ideal)) W (Proc.devRef .tc main_arg3) = W (Proc.devRef .tc main_arg3) := by
  after_results

theorem s02_arg4 : StableHlo.after (hostOps0_2 (F := Ideal)) W (Proc.devRef .tc main_arg4) = W (Proc.devRef .tc main_arg4) := by
  after_results

theorem s02_arg5 : StableHlo.after (hostOps0_2 (F := Ideal)) W (Proc.devRef .tc main_arg5) = W (Proc.devRef .tc main_arg5) := by
  after_results

theorem s02_arg6 : StableHlo.after (hostOps0_2 (F := Ideal)) W (Proc.devRef .tc main_arg6) = W (Proc.devRef .tc main_arg6) := by
  after_results

theorem s02_arg7 : StableHlo.after (hostOps0_2 (F := Ideal)) W (Proc.devRef .tc main_arg7) = W (Proc.devRef .tc main_arg7) := by
  after_results

theorem s02_arg8 : StableHlo.after (hostOps0_2 (F := Ideal)) W (Proc.devRef .tc main_arg8) = W (Proc.devRef .tc main_arg8) := by
  after_results

/-! ## `hostOps1` -/

set_option maxHeartbeats 2000000 in
theorem s1_v43 : StableHlo.after (hostOps1 (F := Ideal)) W (Proc.devRef .tc main_v43) = Cert.Gcn.aggregate (F := Ideal) (W (Proc.devRef .tc main_v5)) (W (Proc.devRef .tc main_v6)) (W (Proc.devRef .tc main_v29)) (W (Proc.devRef .tc main_v30)) := by
  after_results_simp
  rfl

theorem s1_v5 : StableHlo.after (hostOps1 (F := Ideal)) W (Proc.devRef .tc main_v5) = W (Proc.devRef .tc main_v5) := by
  after_results

theorem s1_v6 : StableHlo.after (hostOps1 (F := Ideal)) W (Proc.devRef .tc main_v6) = W (Proc.devRef .tc main_v6) := by
  after_results

theorem s1_v29 : StableHlo.after (hostOps1 (F := Ideal)) W (Proc.devRef .tc main_v29) = W (Proc.devRef .tc main_v29) := by
  after_results

theorem s1_arg2 : StableHlo.after (hostOps1 (F := Ideal)) W (Proc.devRef .tc main_arg2) = W (Proc.devRef .tc main_arg2) := by
  after_results

theorem s1_arg4 : StableHlo.after (hostOps1 (F := Ideal)) W (Proc.devRef .tc main_arg4) = W (Proc.devRef .tc main_arg4) := by
  after_results

theorem s1_arg5 : StableHlo.after (hostOps1 (F := Ideal)) W (Proc.devRef .tc main_arg5) = W (Proc.devRef .tc main_arg5) := by
  after_results

theorem s1_arg6 : StableHlo.after (hostOps1 (F := Ideal)) W (Proc.devRef .tc main_arg6) = W (Proc.devRef .tc main_arg6) := by
  after_results

theorem s1_arg7 : StableHlo.after (hostOps1 (F := Ideal)) W (Proc.devRef .tc main_arg7) = W (Proc.devRef .tc main_arg7) := by
  after_results

theorem s1_arg8 : StableHlo.after (hostOps1 (F := Ideal)) W (Proc.devRef .tc main_arg8) = W (Proc.devRef .tc main_arg8) := by
  after_results

/-! ## `hostOps3` -/

set_option maxHeartbeats 2000000 in
theorem s3_v58 : StableHlo.after (hostOps3 (F := Ideal)) W (Proc.devRef .tc main_v58) = Cert.Gcn.aggregate (F := Ideal) (W (Proc.devRef .tc main_v5)) (W (Proc.devRef .tc main_v6)) (W (Proc.devRef .tc main_v29)) (W (Proc.devRef .tc main_v45)) := by
  after_results_simp
  rfl

theorem s3_arg2 : StableHlo.after (hostOps3 (F := Ideal)) W (Proc.devRef .tc main_arg2) = W (Proc.devRef .tc main_arg2) := by
  after_results

theorem s3_arg6 : StableHlo.after (hostOps3 (F := Ideal)) W (Proc.devRef .tc main_arg6) = W (Proc.devRef .tc main_arg6) := by
  after_results

theorem s3_arg7 : StableHlo.after (hostOps3 (F := Ideal)) W (Proc.devRef .tc main_arg7) = W (Proc.devRef .tc main_arg7) := by
  after_results

theorem s3_arg8 : StableHlo.after (hostOps3 (F := Ideal)) W (Proc.devRef .tc main_arg8) = W (Proc.devRef .tc main_arg8) := by
  after_results

/-! ## `hostOps4` -/

set_option maxHeartbeats 2000000 in
theorem s4_v71 : StableHlo.after (hostOps4 (F := Ideal)) W (Proc.devRef .tc main_v71) = Cert.Gcn.pool (F := Ideal) (W (Proc.devRef .tc main_arg2)) (W (Proc.devRef .tc main_v59)) := by
  after_results_simp
  rfl

theorem s4_arg7 : StableHlo.after (hostOps4 (F := Ideal)) W (Proc.devRef .tc main_arg7) = W (Proc.devRef .tc main_arg7) := by
  after_results

theorem s4_arg8 : StableHlo.after (hostOps4 (F := Ideal)) W (Proc.devRef .tc main_arg8) = W (Proc.devRef .tc main_arg8) := by
  after_results

end Cert.Gcn.Stretch

end
-- ==== Proof.LibPlainMatmul.lean ====
/-
  A matrix product into a zero accumulator, read at one entry, over the extended reals.

  For any extents M, K, N: the product of an M×K matrix and a K×N matrix with the plain dimension numbers (the left
  operand's axis 1 contracted with the right operand's axis 0, no batch axes), accumulated into the zero matrix, is at
  entry (p, n) the sum over k of left(p, k) · right(k, n). The accumulator contributes 0 + ·, the contraction index
  of the product is one coordinate k, and the operand indices at (p, n) and k are (p, k) and (k, n).
-/
import Idealize.ShloMosaic.Lib.ValueIdx
import Idealize.ShloMosaic.PureOps.Ideal.Laws

namespace Cert.LibPlainMatmul

open Idealize.ShloMosaic Idealize.ShloMosaic.ValueIdx

/-- The left operand's index at result entry `(p, n)` and contraction coordinate `k` is `(p, k)`. -/
theorem plain_lhsIdx {M K N : ℕ} (p : Fin M) (n : Fin N) (k : Fin K) :
    (DotDims.plain M K N).lhsIdx (ix2 p n) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl _ _).trans
        (contrEquiv1_symm_val (DotDims.plain M K N) K rfl rfl k))

/-- The right operand's index at result entry `(p, n)` and contraction coordinate `k` is `(k, n)`. -/
theorem plain_rhsIdx {M K N : ℕ} (p : Fin M) (n : Fin N) (k : Fin K) :
    (DotDims.plain M K N).rhsIdx (ix2 p n) ((contrEquiv1 (DotDims.plain M K N) K rfl rfl).symm k) = ix2 k n :=
  funext fun a => Fin.ext (by
    match a with
    | ⟨0, _⟩ =>
      exact ((DotDims.plain M K N).rhsIdx_val_of_single rfl _ _).trans
        (contrEquiv1_symm_val (DotDims.plain M K N) K rfl rfl k)
    | ⟨1, _⟩ => rfl)

/-- An M×K matrix times a K×N matrix into the zero accumulator, at entry `(p, n)`: `∑ k, l (p, k) * r (k, n)`. -/
theorem matmul_plain_zero_apply {M K N : ℕ} {φ₁ φ₂ : FTy} (prec : Option ContractPrecision)
    (l : FVec Ideal ⟨2, ![M, K]⟩ φ₁) (r : FVec Ideal ⟨2, ![K, N]⟩ φ₂) (p : Fin M) (n : Fin N) :
    matmul (DotDims.plain M K N) prec l r (constant (F := Ideal) ⟨2, ![M, N]⟩ .f32 0x00000000#32) (ix2 p n)
      = ∑ k : Fin K, l (ix2 p k) * r (ix2 k n) := by
  show FloatOps.matmul _ _ _ _ _ _ = _
  rw [Ideal.matmul_constant_zero_apply, ← Equiv.sum_comp (contrEquiv1 (DotDims.plain M K N) K rfl rfl).symm]
  refine Finset.sum_congr rfl fun k _ => ?_
  rw [plain_lhsIdx, plain_rhsIdx]

/-- The same for any dimension-numbers record `D` that is the plain one (a printed program names its own record). -/
theorem matmul_eq_plain_zero_apply {M K N : ℕ} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (n : Fin N) :
    matmul D prec l r (constant (F := Ideal) ⟨2, ![M, N]⟩ .f32 0x00000000#32) (ix2 p n)
      = ∑ k : Fin K, l (ix2 p k) * r (ix2 k n) := by
  subst hD; exact matmul_plain_zero_apply prec l r p n

end Cert.LibPlainMatmul
-- ==== Proof.LibHostPlainDot.lean ====
/-
  A host matrix product, read at one entry, over the extended reals.

  For any extents M, K, N: the host's `dot_general` of an M×K matrix and a K×N matrix with the plain dimension numbers
  (the left operand's axis 1 contracted with the right operand's axis 0, no batch axes) is, at entry (p, n), the sum
  over k of left(p, k) · right(k, n) — the same sum a matrix product into a zero accumulator gives. Stated for any
  dimension-numbers record equal to the plain one, since a printed program names its own record.
-/
import proofs.«173079_j13039520711474_1_alg».proof.Proof.LibPlainMatmul
import Idealize.ShloMosaic.Lib.ValueIdx
import Idealize.ShloMosaic.PureOps.Ideal.Laws

namespace Cert.LibHostPlainDot

open Idealize.ShloMosaic Idealize.ShloMosaic.ValueIdx Cert.LibPlainMatmul

/-- A host product with the plain dimension numbers, at entry `(p, n)`: `∑ k, l (p, k) * r (k, n)`. -/
theorem dotGeneral_plain_apply {M K N : ℕ} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (n : Fin N) :
    Host.dotGeneral (F := Ideal) D prec l r (ix2 p n) = ∑ k : Fin K, l (ix2 p k) * r (ix2 k n) := by
  subst hD
  show FloatOps.dotGeneral _ _ _ _ _ _ = _
  rw [Ideal.dotGeneral_apply, ← Equiv.sum_comp (contrEquiv1 (DotDims.plain M K N) K rfl rfl).symm]
  refine Finset.sum_congr rfl fun k _ => ?_
  rw [plain_lhsIdx, plain_rhsIdx]

end Cert.LibHostPlainDot
-- ==== Proof.Tile0.lean ====
/-
  The first layer's matrix product, block by block.

  The kernel multiplies the node features by the weight matrix 5000 rows at a time: at grid point t it reads
  rows 5000·t … 5000·t + 4999 of the features and the whole weight matrix, and writes the product of the two into
  the same rows of the result. Entry (p, n) of a block's product is the sum over k of block(p, k) · weight(k, n),
  that is, of features(5000·t + p, k) · weight(k, n): entry (5000·t + p, n) of the whole product. The ten blocks
  cover every row, so the result array ends as the whole product `dense`.
-/
import proofs.«173079_j13039520711474_1_alg».proof.Proof.Gen.KernelIdeal.Frame
import proofs.«173079_j13039520711474_1_alg».proof.Proof.Gen.ReferenceIdeal
import proofs.«173079_j13039520711474_1_alg».proof.Proof.Model
import proofs.«173079_j13039520711474_1_alg».proof.Proof.LibPlainMatmul
import proofs.«173079_j13039520711474_1_alg».proof.Proof.LibHostPlainDot
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.Gcn.Tile0

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl

/-- A block's product at an entry: the sum over k of block(p, k) · weight(k, n). -/
theorem tile_apply (x0 : Vec Ideal S5000x128 .f32) (x1 : Vec Ideal S128x128 .f32) (p : Fin 5000) (n : Fin 128) :
    k0_pay1 x0 x1 (ix2 p n) = ∑ k : Fin 128, x0 (ix2 p k) * x1 (ix2 k n) := by
  unfold k0_pay1
  exact Cert.LibPlainMatmul.matmul_eq_plain_zero_apply dot_S5000x128_S128x128_S5000x128_1_0_0_1_n_n rfl none _ _ p n

/-- A block of rows starting at row `r` times the weights is that block of rows of the whole product. -/
theorem tile_eq_dense (A0 : (⟨Cert.ReferenceIdeal.S50000x128, .f32⟩ : BufTy).Contents (Elt Ideal)) (A1 : (⟨Cert.ReferenceIdeal.S128x128, .f32⟩ : BufTy).Contents (Elt Ideal))
    (x0 : Vec Ideal S5000x128 .f32) (x1 : Vec Ideal S128x128 .f32) (r : ℕ)
    (h0 : ∀ (p : Fin 5000) (k : Fin 128) (P : Fin 50000), P.val = r + p.val → x0 (ix2 p k) = A0 (ix2 P k))
    (h1 : ∀ (k n : Fin 128), x1 (ix2 k n) = A1 (ix2 k n))
    (j : S5000x128.Idx) (i : Cert.ReferenceIdeal.S50000x128.Idx) (hi0 : (i 0).val = r + (j 0).val) (hi1 : (i 1).val = (j 1).val) :
    k0_pay1 x0 x1 j = Cert.Gcn.dense (F := Ideal) A0 A1 i := by
  obtain ⟨p, n, rfl⟩ : ∃ (p : Fin 5000) (n : Fin 128), j = ix2 p n := ⟨j 0, j 1, eq_ix2 j⟩
  obtain ⟨P, n', rfl⟩ : ∃ (P : Fin 50000) (n' : Fin 128), i = ix2 P n' := ⟨i 0, i 1, eq_ix2 i⟩
  have hn : n' = n := Fin.ext hi1
  subst hn
  rw [tile_apply]
  unfold Cert.Gcn.dense
  rw [Cert.LibHostPlainDot.dotGeneral_plain_apply Cert.ReferenceIdeal.dot_S50000x128_S128x128_S50000x128_1_0_0_1_n_n rfl none A0 A1 P n']
  exact Finset.sum_congr rfl fun k _ => by rw [h0 p k P hi0, h1 k n']

/-- The printed index maps over the grid: the feature and result windows sit at row block t, the weights at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the arrays the region finds. -/
theorem flushed_eq (c : Dev nD) (t : Fin cfg0.N) :
    (dat0 V c).flushed 2 t = ((cfg0.win 2).blk t).view.read (Elt Ideal) (Cert.Gcn.dense (F := Ideal) (V c main_arg0) (V c main_arg3)) := by
  show (cfg0.win 2).cut (grid0.coords t) ((dat0 V c).after 2 t) = _
  rw [after0_2]
  unfold out0_2
  rw [View.canon_unit_zero hz2]
  simp only [View.ld_unit_zero (S := S5000x128) hz2, View.ld_unit_zero (S := S128x128) hz2]
  obtain ⟨e0, e1, e2, e3, e4, e5⟩ := idx_facts t
  funext j
  show k0_pay1 (iblk0 V c 0 t) (iblk0 V c 1 t) j = Cert.Gcn.dense (F := Ideal) (V c main_arg0) (V c main_arg3) (((cfg0.win 2).blk t).view.emb j)
  refine tile_eq_dense (V c main_arg0) (V c main_arg3) (iblk0 V c 0 t) (iblk0 V c 1 t) (5000 * t.val) ?_ ?_ j _ ?_ ?_
  · intro p k P hP
    show V c main_arg0 (((cfg0.win 0).blk t).view.emb (ix2 p k)) = V c main_arg0 (ix2 P k)
    congr 1; funext a; apply Fin.ext
    match a with
    | ⟨0, _⟩ => show win0_0.index t (0 : Fin 2) * 5000 + 1 * p.val = P.val; omega
    | ⟨1, _⟩ => show win0_0.index t (1 : Fin 2) * 128 + 1 * k.val = k.val; omega
  · intro k n
    show V c main_arg3 (((cfg0.win 1).blk t).view.emb (ix2 k n)) = V c main_arg3 (ix2 k n)
    congr 1; funext a; apply Fin.ext
    match a with
    | ⟨0, _⟩ => show win0_1.index t (0 : Fin 2) * 128 + 1 * k.val = k.val; omega
    | ⟨1, _⟩ => show win0_1.index t (1 : Fin 2) * 128 + 1 * n.val = n.val; omega
  · show win0_2.index t (0 : Fin 2) * 5000 + 1 * (j 0).val = 5000 * t.val + (j 0).val; omega
  · show win0_2.index t (1 : Fin 2) * 128 + 1 * (j 1).val = (j 1).val; omega

/-- An index of the result array lies in point t's block iff each coordinate is in the block's range. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row r of the result lies in the block of point r / 5000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region its result array is the whole product of the features and the weights it found. -/
theorem region (c : Dev nD) :
    (dat0 V c).arrAt 2 cfg0.N = Cert.Gcn.dense (F := Ideal) (V c main_arg0) (V c main_arg3) :=
  (dat0 V c).arrAt_eq_of_cover 2 _ (fun t _ => flushed_eq V c t) cover

end Cert.Gcn.Tile0

end
-- ==== Proof.Tile1.lean ====
/-
  The first layer's bias and positive part, block by block.

  The kernel takes the aggregated features 5000 rows at a time and the whole bias vector: at grid point t entry
  (p, n) of the block becomes max(agg(5000·t + p, n) + b(n), 0) — the bias vector is laid out as a 1 × 128 row and
  repeated down the block's rows. That is entry (5000·t + p, n) of the same operation done on the whole array
  (`biasRelu`, where the bias vector is likewise laid out as a row and repeated down all rows). The ten blocks
  cover every row.
-/
import proofs.«173079_j13039520711474_1_alg».proof.Proof.Gen.KernelIdeal.Frame
import proofs.«173079_j13039520711474_1_alg».proof.Proof.Gen.ReferenceIdeal
import proofs.«173079_j13039520711474_1_alg».proof.Proof.Model
import proofs.«173079_j13039520711474_1_alg».proof.Proof.LibPlainMatmul
import proofs.«173079_j13039520711474_1_alg».proof.Proof.LibHostPlainDot
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.Gcn.Tile1

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The bias vector as a 1 × 128 row repeated down a block's rows, at (p, n): b(n). -/
theorem tile_row (b : Vec Ideal S128 .f32) (p : Fin 5000) (n : Fin 128) :
    broadcastTo S5000x128 (shapeCast S1x128 b shapeCasts_S128_S1x128) broadcasts_S1x128_S5000x128 (ix2 p n) = b (ix1 n) := by
  rw [broadcastTo_apply _ _ (ix2 p n) (ix2 (0 : Fin 1) n) (fun a => by match a with | ⟨0, _⟩ => rfl | ⟨1, _⟩ => rfl)]
  rw [shapeCast_addUnit_apply ![128] b shapeCasts_S128_S1x128 (ix2 (0 : Fin 1) n)]
  exact congrArg b (funext fun a => by match a with | ⟨0, _⟩ => rfl)

/-- The bias vector as a 1 × 128 row repeated down all rows of the array, at (P, n): b(n). -/
theorem host_row (b : (⟨Cert.ReferenceIdeal.S128, .f32⟩ : BufTy).Contents (Elt Ideal)) (P : Fin 50000) (n : Fin 128) :
    broadcastInDim Cert.ReferenceIdeal.S50000x128 ![0, 1] Cert.ReferenceIdeal.Facts₀.bcast_S1x128_S50000x128_0_1
      (broadcastInDim Cert.ReferenceIdeal.S1x128 ![1] Cert.ReferenceIdeal.Facts₀.bcast_S128_S1x128_1 b) (ix2 P n) = b (ix1 n) := by
  rw [broadcastInDim_apply _ _ _ (ix2 P n) (ix2 (0 : Fin 1) n) (fun a => by match a with | ⟨0, _⟩ => rfl | ⟨1, _⟩ => rfl)]
  rw [broadcastInDim_apply _ _ _ (ix2 (0 : Fin 1) n) (ix1 n) (fun a => by match a with | ⟨0, _⟩ => rfl)]

/-- A block's result at an entry: max(agg(p, n) + b(n), 0). -/
theorem tile_apply (b : Vec Ideal S128 .f32) (x : Vec Ideal S5000x128 .f32) (p : Fin 5000) (n : Fin 128) :
    k1_pay1 b x (ix2 p n) = max (x (ix2 p n) + b (ix1 n)) (Ideal.ofBits .f32 0x00000000#32) := by
  unfold k1_pay1
  show max (shapeCast S5000x128 x shapeCasts_S5000x128_S5000x128 (ix2 p n)
      + broadcastTo S5000x128 (shapeCast S1x128 b shapeCasts_S128_S1x128) broadcasts_S1x128_S5000x128 (ix2 p n)) _ = _
  rw [tile_row, shapeCast_self]
  rfl

/-- The whole-array operation at an entry: max(agg(P, n) + b(n), 0). -/
theorem host_apply (A : (⟨Cert.ReferenceIdeal.S50000x128, .f32⟩ : BufTy).Contents (Elt Ideal)) (B : (⟨Cert.ReferenceIdeal.S128, .f32⟩ : BufTy).Contents (Elt Ideal))
    (P : Fin 50000) (n : Fin 128) :
    Cert.Gcn.biasRelu (F := Ideal) A B (ix2 P n) = max (A (ix2 P n) + B (ix1 n)) (Ideal.ofBits .f32 0x00000000#32) := by
  unfold Cert.Gcn.biasRelu
  show max (A (ix2 P n) + broadcastInDim Cert.ReferenceIdeal.S50000x128 ![0, 1] Cert.ReferenceIdeal.Facts₀.bcast_S1x128_S50000x128_0_1
      (broadcastInDim Cert.ReferenceIdeal.S1x128 ![1] Cert.ReferenceIdeal.Facts₀.bcast_S128_S1x128_1 B) (ix2 P n)) _ = _
  rw [host_row]
  rfl

/-- A block of rows starting at row `r` is that block of rows of the whole-array operation. -/
theorem tile_eq_biasRelu (A : (⟨Cert.ReferenceIdeal.S50000x128, .f32⟩ : BufTy).Contents (Elt Ideal)) (B : (⟨Cert.ReferenceIdeal.S128, .f32⟩ : BufTy).Contents (Elt Ideal))
    (x : Vec Ideal S5000x128 .f32) (b : Vec Ideal S128 .f32) (r : ℕ)
    (h0 : ∀ (p : Fin 5000) (n : Fin 128) (P : Fin 50000), P.val = r + p.val → x (ix2 p n) = A (ix2 P n))
    (h1 : ∀ (n : Fin 128), b (ix1 n) = B (ix1 n))
    (j : S5000x128.Idx) (i : Cert.ReferenceIdeal.S50000x128.Idx) (hi0 : (i 0).val = r + (j 0).val) (hi1 : (i 1).val = (j 1).val) :
    k1_pay1 b x j = Cert.Gcn.biasRelu (F := Ideal) A B i := by
  obtain ⟨p, n, rfl⟩ : ∃ (p : Fin 5000) (n : Fin 128), j = ix2 p n := ⟨j 0, j 1, eq_ix2 j⟩
  obtain ⟨P, n', rfl⟩ : ∃ (P : Fin 50000) (n' : Fin 128), i = ix2 P n' := ⟨i 0, i 1, eq_ix2 i⟩
  have hn : n' = n := Fin.ext hi1
  subst hn
  rw [tile_apply, host_apply, h0 p n' P hi0, h1 n']

/-- The printed index maps over the grid: the feature and result windows sit at row block t, the bias at block 0. -/
theorem idx_facts : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- What point t writes back is block t of the whole-array operation on the arrays the region finds. -/
theorem flushed_eq (c : Dev nD) (t : Fin cfg1.N) :
    (dat1 V c).flushed 2 t = ((cfg1.win 2).blk t).view.read (Elt Ideal) (Cert.Gcn.biasRelu (F := Ideal) (V c main_v43) (V c main_arg4)) := by
  show (cfg1.win 2).cut (grid1.coords t) ((dat1 V c).after 2 t) = _
  rw [after1_2]
  unfold out1_2
  rw [View.canon_unit_zero hz2]
  simp only [View.ld_unit_zero (S := S5000x128) hz2, View.ld_unit_zero (S := S128) hz1]
  obtain ⟨e0, e1, e2, e3, e4⟩ := idx_facts t
  funext j
  show k1_pay1 (iblk1 V c 1 t) (iblk1 V c 0 t) j = Cert.Gcn.biasRelu (F := Ideal) (V c main_v43) (V c main_arg4) (((cfg1.win 2).blk t).view.emb j)
  refine tile_eq_biasRelu (V c main_v43) (V c main_arg4) (iblk1 V c 0 t) (iblk1 V c 1 t) (5000 * t.val) ?_ ?_ j _ ?_ ?_
  · intro p n P hP
    show V c main_v43 (((cfg1.win 0).blk t).view.emb (ix2 p n)) = V c main_v43 (ix2 P n)
    congr 1; funext a; apply Fin.ext
    match a with
    | ⟨0, _⟩ => show win1_0.index t (0 : Fin 2) * 5000 + 1 * p.val = P.val; omega
    | ⟨1, _⟩ => show win1_0.index t (1 : Fin 2) * 128 + 1 * n.val = n.val; omega
  · intro n
    show V c main_arg4 (((cfg1.win 1).blk t).view.emb (ix1 n)) = V c main_arg4 (ix1 n)
    congr 1; funext a; apply Fin.ext
    match a with
    | ⟨0, _⟩ => show win1_1.index t (0 : Fin 1) * 128 + 1 * n.val = n.val; omega
  · show win1_2.index t (0 : Fin 2) * 5000 + 1 * (j 0).val = 5000 * t.val + (j 0).val; omega
  · show win1_2.index t (1 : Fin 2) * 128 + 1 * (j 1).val = (j 1).val; omega

/-- An index of the result array lies in point t's block iff each coordinate is in the block's range. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v44).slice (win1_2.rect t)).set ↔ _
  rw [View.set_slice_whole, Rect.mem_set_unit]
  exact Iff.rfl

/-- Row r of the result lies in the block of point r / 5000. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨e0, e1, e2, e3, e4⟩ := idx_facts t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the region its result array is the bias added and the positive part taken of the array it found. -/
theorem region (c : Dev nD) :
    (dat1 V c).arrAt 2 cfg1.N = Cert.Gcn.biasRelu (F := Ideal) (V c main_v43) (V c main_arg4) :=
  (dat1 V c).arrAt_eq_of_cover 2 _ (fun t _ => flushed_eq V c t) cover

end Cert.Gcn.Tile1

end
-- ==== Proof.Tile2.lean ====
/-
  The second layer's matrix product, block by block.

  As in the first layer the kernel multiplies the hidden features by the weight matrix 5000 rows at a time (the
  block is first cast to its own shape, which changes nothing): point t writes the product of rows
  5000·t … 5000·t + 4999 of the features with the whole weight matrix into the same rows of the result, and entry
  (p, n) of that block is entry (5000·t + p, n) of the whole product. The ten blocks cover every row, so the
  result array ends as the whole product `dense`.
-/
import proofs.«173079_j13039520711474_1_alg».proof.Proof.Gen.KernelIdeal.Frame
import proofs.«173079_j13039520711474_1_alg».proof.Proof.Gen.ReferenceIdeal
import proofs.«173079_j13039520711474_1_alg».proof.Proof.Model
import proofs.«173079_j13039520711474_1_alg».proof.Proof.LibPlainMatmul
import proofs.«173079_j13039520711474_1_alg».proof.Proof.LibHostPlainDot
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.Gcn.Tile2

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl

/-- A block's product at an entry: the sum over k of block(p, k) · weight(k, n). -/
theorem tile_apply (x0 : Vec Ideal S5000x128 .f32) (x1 : Vec Ideal S128x128 .f32) (p : Fin 5000) (n : Fin 128) :
    k2_pay1 x0 x1 (ix2 p n) = ∑ k : Fin 128, x0 (ix2 p k) * x1 (ix2 k n) := by
  unfold k2_pay1
  simp only [shapeCast_self]
  exact Cert.LibPlainMatmul.matmul_eq_plain_zero_apply dot_S5000x128_S128x128_S5000x128_1_0_0_1_n_n rfl none _ _ p n

/-- A block of rows starting at row `r` times the weights is that block of rows of the whole product. -/
theorem tile_eq_dense (A0 : (⟨Cert.ReferenceIdeal.S50000x128, .f32⟩ : BufTy).Contents (Elt Ideal)) (A1 : (⟨Cert.ReferenceIdeal.S128x128, .f32⟩ : BufTy).Contents (Elt Ideal))
    (x0 : Vec Ideal S5000x128 .f32) (x1 : Vec Ideal S128x128 .f32) (r : ℕ)
    (h0 : ∀ (p : Fin 5000) (k : Fin 128) (P : Fin 50000), P.val = r + p.val → x0 (ix2 p k) = A0 (ix2 P k))
    (h1 : ∀ (k n : Fin 128), x1 (ix2 k n) = A1 (ix2 k n))
    (j : S5000x128.Idx) (i : Cert.ReferenceIdeal.S50000x128.Idx) (hi0 : (i 0).val = r + (j 0).val) (hi1 : (i 1).val = (j 1).val) :
    k2_pay1 x0 x1 j = Cert.Gcn.dense (F := Ideal) A0 A1 i := by
  obtain ⟨p, n, rfl⟩ : ∃ (p : Fin 5000) (n : Fin 128), j = ix2 p n := ⟨j 0, j 1, eq_ix2 j⟩
  obtain ⟨P, n', rfl⟩ : ∃ (P : Fin 50000) (n' : Fin 128), i = ix2 P n' := ⟨i 0, i 1, eq_ix2 i⟩
  have hn : n' = n := Fin.ext hi1
  subst hn
  rw [tile_apply]
  unfold Cert.Gcn.dense
  rw [Cert.LibHostPlainDot.dotGeneral_plain_apply Cert.ReferenceIdeal.dot_S50000x128_S128x128_S50000x128_1_0_0_1_n_n rfl none A0 A1 P n']
  exact Finset.sum_congr rfl fun k _ => by rw [h0 p k P hi0, h1 k n']

/-- The printed index maps over the grid: the feature and result windows sit at row block t, the weights at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product of the arrays the region finds. -/
theorem flushed_eq (c : Dev nD) (t : Fin cfg2.N) :
    (dat2 V c).flushed 2 t = ((cfg2.win 2).blk t).view.read (Elt Ideal) (Cert.Gcn.dense (F := Ideal) (V c main_v44) (V c main_arg5)) := by
  show (cfg2.win 2).cut (grid2.coords t) ((dat2 V c).after 2 t) = _
  rw [after2_2]
  unfold out2_2
  rw [View.canon_unit_zero hz2]
  simp only [View.ld_unit_zero (S := S5000x128) hz2, View.ld_unit_zero (S := S128x128) hz2]
  obtain ⟨e0, e1, e2, e3, e4, e5⟩ := idx_facts t
  funext j
  show k2_pay1 (iblk2 V c 0 t) (iblk2 V c 1 t) j = Cert.Gcn.dense (F := Ideal) (V c main_v44) (V c main_arg5) (((cfg2.win 2).blk t).view.emb j)
  refine tile_eq_dense (V c main_v44) (V c main_arg5) (iblk2 V c 0 t) (iblk2 V c 1 t) (5000 * t.val) ?_ ?_ j _ ?_ ?_
  · intro p k P hP
    show V c main_v44 (((cfg2.win 0).blk t).view.emb (ix2 p k)) = V c main_v44 (ix2 P k)
    congr 1; funext a; apply Fin.ext
    match a with
    | ⟨0, _⟩ => show win2_0.index t (0 : Fin 2) * 5000 + 1 * p.val = P.val; omega
    | ⟨1, _⟩ => show win2_0.index t (1 : Fin 2) * 128 + 1 * k.val = k.val; omega
  · intro k n
    show V c main_arg5 (((cfg2.win 1).blk t).view.emb (ix2 k n)) = V c main_arg5 (ix2 k n)
    congr 1; funext a; apply Fin.ext
    match a with
    | ⟨0, _⟩ => show win2_1.index t (0 : Fin 2) * 128 + 1 * k.val = k.val; omega
    | ⟨1, _⟩ => show win2_1.index t (1 : Fin 2) * 128 + 1 * n.val = n.val; omega
  · show win2_2.index t (0 : Fin 2) * 5000 + 1 * (j 0).val = 5000 * t.val + (j 0).val; omega
  · show win2_2.index t (1 : Fin 2) * 128 + 1 * (j 1).val = (j 1).val; omega

/-- An index of the result array lies in point t's block iff each coordinate is in the block's range. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v45).slice (win2_2.rect t)).set ↔ _
  rw [View.set_slice_whole, Rect.mem_set_unit]
  exact Iff.rfl

/-- Row r of the result lies in the block of point r / 5000. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨e0, e1, e2, e3, e4, e5⟩ := idx_facts t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the region its result array is the whole product of the features and the weights it found. -/
theorem region (c : Dev nD) :
    (dat2 V c).arrAt 2 cfg2.N = Cert.Gcn.dense (F := Ideal) (V c main_v44) (V c main_arg5) :=
  (dat2 V c).arrAt_eq_of_cover 2 _ (fun t _ => flushed_eq V c t) cover

end Cert.Gcn.Tile2

end
-- ==== Proof.Tile3.lean ====
/-
  The second layer's bias and positive part, block by block.

  The kernel takes the aggregated features 5000 rows at a time and the whole bias vector: at grid point t entry
  (p, n) of the block becomes max(agg(5000·t + p, n) + b(n), 0) — the bias vector is laid out as a 1 × 128 row and
  repeated down the block's rows. That is entry (5000·t + p, n) of the same operation done on the whole array
  (`biasRelu`, where the bias vector is likewise laid out as a row and repeated down all rows). The ten blocks
  cover every row.
-/
import proofs.«173079_j13039520711474_1_alg».proof.Proof.Gen.KernelIdeal.Frame
import proofs.«173079_j13039520711474_1_alg».proof.Proof.Gen.ReferenceIdeal
import proofs.«173079_j13039520711474_1_alg».proof.Proof.Model
import proofs.«173079_j13039520711474_1_alg».proof.Proof.LibPlainMatmul
import proofs.«173079_j13039520711474_1_alg».proof.Proof.LibHostPlainDot
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.Gcn.Tile3

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The bias vector as a 1 × 128 row repeated down a block's rows, at (p, n): b(n). -/
theorem tile_row (b : Vec Ideal S128 .f32) (p : Fin 5000) (n : Fin 128) :
    broadcastTo S5000x128 (shapeCast S1x128 b shapeCasts_S128_S1x128) broadcasts_S1x128_S5000x128 (ix2 p n) = b (ix1 n) := by
  rw [broadcastTo_apply _ _ (ix2 p n) (ix2 (0 : Fin 1) n) (fun a => by match a with | ⟨0, _⟩ => rfl | ⟨1, _⟩ => rfl)]
  rw [shapeCast_addUnit_apply ![128] b shapeCasts_S128_S1x128 (ix2 (0 : Fin 1) n)]
  exact congrArg b (funext fun a => by match a with | ⟨0, _⟩ => rfl)

/-- The bias vector as a 1 × 128 row repeated down all rows of the array, at (P, n): b(n). -/
theorem host_row (b : (⟨Cert.ReferenceIdeal.S128, .f32⟩ : BufTy).Contents (Elt Ideal)) (P : Fin 50000) (n : Fin 128) :
    broadcastInDim Cert.ReferenceIdeal.S50000x128 ![0, 1] Cert.ReferenceIdeal.Facts₀.bcast_S1x128_S50000x128_0_1
      (broadcastInDim Cert.ReferenceIdeal.S1x128 ![1] Cert.ReferenceIdeal.Facts₀.bcast_S128_S1x128_1 b) (ix2 P n) = b (ix1 n) := by
  rw [broadcastInDim_apply _ _ _ (ix2 P n) (ix2 (0 : Fin 1) n) (fun a => by match a with | ⟨0, _⟩ => rfl | ⟨1, _⟩ => rfl)]
  rw [broadcastInDim_apply _ _ _ (ix2 (0 : Fin 1) n) (ix1 n) (fun a => by match a with | ⟨0, _⟩ => rfl)]

/-- A block's result at an entry: max(agg(p, n) + b(n), 0). -/
theorem tile_apply (b : Vec Ideal S128 .f32) (x : Vec Ideal S5000x128 .f32) (p : Fin 5000) (n : Fin 128) :
    k3_pay1 b x (ix2 p n) = max (x (ix2 p n) + b (ix1 n)) (Ideal.ofBits .f32 0x00000000#32) := by
  unfold k3_pay1
  show max (shapeCast S5000x128 x shapeCasts_S5000x128_S5000x128 (ix2 p n)
      + broadcastTo S5000x128 (shapeCast S1x128 b shapeCasts_S128_S1x128) broadcasts_S1x128_S5000x128 (ix2 p n)) _ = _
  rw [tile_row, shapeCast_self]
  rfl

/-- The whole-array operation at an entry: max(agg(P, n) + b(n), 0). -/
theorem host_apply (A : (⟨Cert.ReferenceIdeal.S50000x128, .f32⟩ : BufTy).Contents (Elt Ideal)) (B : (⟨Cert.ReferenceIdeal.S128, .f32⟩ : BufTy).Contents (Elt Ideal))
    (P : Fin 50000) (n : Fin 128) :
    Cert.Gcn.biasRelu (F := Ideal) A B (ix2 P n) = max (A (ix2 P n) + B (ix1 n)) (Ideal.ofBits .f32 0x00000000#32) := by
  unfold Cert.Gcn.biasRelu
  show max (A (ix2 P n) + broadcastInDim Cert.ReferenceIdeal.S50000x128 ![0, 1] Cert.ReferenceIdeal.Facts₀.bcast_S1x128_S50000x128_0_1
      (broadcastInDim Cert.ReferenceIdeal.S1x128 ![1] Cert.ReferenceIdeal.Facts₀.bcast_S128_S1x128_1 B) (ix2 P n)) _ = _
  rw [host_row]
  rfl

/-- A block of rows starting at row `r` is that block of rows of the whole-array operation. -/
theorem tile_eq_biasRelu (A : (⟨Cert.ReferenceIdeal.S50000x128, .f32⟩ : BufTy).Contents (Elt Ideal)) (B : (⟨Cert.ReferenceIdeal.S128, .f32⟩ : BufTy).Contents (Elt Ideal))
    (x : Vec Ideal S5000x128 .f32) (b : Vec Ideal S128 .f32) (r : ℕ)
    (h0 : ∀ (p : Fin 5000) (n : Fin 128) (P : Fin 50000), P.val = r + p.val → x (ix2 p n) = A (ix2 P n))
    (h1 : ∀ (n : Fin 128), b (ix1 n) = B (ix1 n))
    (j : S5000x128.Idx) (i : Cert.ReferenceIdeal.S50000x128.Idx) (hi0 : (i 0).val = r + (j 0).val) (hi1 : (i 1).val = (j 1).val) :
    k3_pay1 b x j = Cert.Gcn.biasRelu (F := Ideal) A B i := by
  obtain ⟨p, n, rfl⟩ : ∃ (p : Fin 5000) (n : Fin 128), j = ix2 p n := ⟨j 0, j 1, eq_ix2 j⟩
  obtain ⟨P, n', rfl⟩ : ∃ (P : Fin 50000) (n' : Fin 128), i = ix2 P n' := ⟨i 0, i 1, eq_ix2 i⟩
  have hn : n' = n := Fin.ext hi1
  subst hn
  rw [tile_apply, host_apply, h0 p n' P hi0, h1 n']

/-- The printed index maps over the grid: the feature and result windows sit at row block t, the bias at block 0. -/
theorem idx_facts : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- What point t writes back is block t of the whole-array operation on the arrays the region finds. -/
theorem flushed_eq (c : Dev nD) (t : Fin cfg3.N) :
    (dat3 V c).flushed 2 t = ((cfg3.win 2).blk t).view.read (Elt Ideal) (Cert.Gcn.biasRelu (F := Ideal) (V c main_v58) (V c main_arg6)) := by
  show (cfg3.win 2).cut (grid3.coords t) ((dat3 V c).after 2 t) = _
  rw [after3_2]
  unfold out3_2
  rw [View.canon_unit_zero hz2]
  simp only [View.ld_unit_zero (S := S5000x128) hz2, View.ld_unit_zero (S := S128) hz1]
  obtain ⟨e0, e1, e2, e3, e4⟩ := idx_facts t
  funext j
  show k3_pay1 (iblk3 V c 1 t) (iblk3 V c 0 t) j = Cert.Gcn.biasRelu (F := Ideal) (V c main_v58) (V c main_arg6) (((cfg3.win 2).blk t).view.emb j)
  refine tile_eq_biasRelu (V c main_v58) (V c main_arg6) (iblk3 V c 0 t) (iblk3 V c 1 t) (5000 * t.val) ?_ ?_ j _ ?_ ?_
  · intro p n P hP
    show V c main_v58 (((cfg3.win 0).blk t).view.emb (ix2 p n)) = V c main_v58 (ix2 P n)
    congr 1; funext a; apply Fin.ext
    match a with
    | ⟨0, _⟩ => show win3_0.index t (0 : Fin 2) * 5000 + 1 * p.val = P.val; omega
    | ⟨1, _⟩ => show win3_0.index t (1 : Fin 2) * 128 + 1 * n.val = n.val; omega
  · intro n
    show V c main_arg6 (((cfg3.win 1).blk t).view.emb (ix1 n)) = V c main_arg6 (ix1 n)
    congr 1; funext a; apply Fin.ext
    match a with
    | ⟨0, _⟩ => show win3_1.index t (0 : Fin 1) * 128 + 1 * n.val = n.val; omega
  · show win3_2.index t (0 : Fin 2) * 5000 + 1 * (j 0).val = 5000 * t.val + (j 0).val; omega
  · show win3_2.index t (1 : Fin 2) * 128 + 1 * (j 1).val = (j 1).val; omega

/-- An index of the result array lies in point t's block iff each coordinate is in the block's range. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v59).slice (win3_2.rect t)).set ↔ _
  rw [View.set_slice_whole, Rect.mem_set_unit]
  exact Iff.rfl

/-- Row r of the result lies in the block of point r / 5000. -/
theorem cover (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨e0, e1, e2, e3, e4⟩ := idx_facts t
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- After the region its result array is the bias added and the positive part taken of the array it found. -/
theorem region (c : Dev nD) :
    (dat3 V c).arrAt 2 cfg3.N = Cert.Gcn.biasRelu (F := Ideal) (V c main_v58) (V c main_arg6) :=
  (dat3 V c).arrAt_eq_of_cover 2 _ (fun t _ => flushed_eq V c t) cover

end Cert.Gcn.Tile3

end
-- ==== Proof.Tile4.lean ====
/-
  The read-out, in one block.

  The last kernel has a single grid point whose blocks are the whole arrays: it multiplies the 32 × 128 pooled
  features by the 128 × 64 weight matrix and adds the bias vector, laid out as a 1 × 64 row and repeated down the
  32 rows. Entry (p, n) is the sum over k of pooled(p, k) · weight(k, n), plus b(n) — the same entry of the host's
  product plus the bias row (`head`).
-/
import proofs.«173079_j13039520711474_1_alg».proof.Proof.Gen.KernelIdeal.Frame
import proofs.«173079_j13039520711474_1_alg».proof.Proof.Gen.ReferenceIdeal
import proofs.«173079_j13039520711474_1_alg».proof.Proof.Model
import proofs.«173079_j13039520711474_1_alg».proof.Proof.LibPlainMatmul
import proofs.«173079_j13039520711474_1_alg».proof.Proof.LibHostPlainDot
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.Gcn.Tile4

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The bias vector as a 1 × 64 row repeated down the 32 rows, at (p, n): b(n). -/
theorem tile_row (b : Vec Ideal S64 .f32) (p : Fin 32) (n : Fin 64) :
    broadcastTo S32x64 (shapeCast S1x64 b shapeCasts_S64_S1x64) broadcasts_S1x64_S32x64 (ix2 p n) = b (ix1 n) := by
  rw [broadcastTo_apply _ _ (ix2 p n) (ix2 (0 : Fin 1) n) (fun a => by match a with | ⟨0, _⟩ => rfl | ⟨1, _⟩ => rfl)]
  rw [shapeCast_addUnit_apply ![64] b shapeCasts_S64_S1x64 (ix2 (0 : Fin 1) n)]
  exact congrArg b (funext fun a => by match a with | ⟨0, _⟩ => rfl)

/-- The host's bias row, at (p, n): b(n). -/
theorem host_row (b : (⟨Cert.ReferenceIdeal.S64, .f32⟩ : BufTy).Contents (Elt Ideal)) (p : Fin 32) (n : Fin 64) :
    broadcastInDim Cert.ReferenceIdeal.S32x64 ![0, 1] Cert.ReferenceIdeal.Facts₀.bcast_S1x64_S32x64_0_1
      (broadcastInDim Cert.ReferenceIdeal.S1x64 ![1] Cert.ReferenceIdeal.Facts₀.bcast_S64_S1x64_1 b) (ix2 p n) = b (ix1 n) := by
  rw [broadcastInDim_apply _ _ _ (ix2 p n) (ix2 (0 : Fin 1) n) (fun a => by match a with | ⟨0, _⟩ => rfl | ⟨1, _⟩ => rfl)]
  rw [broadcastInDim_apply _ _ _ (ix2 (0 : Fin 1) n) (ix1 n) (fun a => by match a with | ⟨0, _⟩ => rfl)]

/-- The kernel's block at an entry: the sum over k of pooled(p, k) · weight(k, n), plus b(n). -/
theorem tile_apply (x : Vec Ideal S32x128 .f32) (w : Vec Ideal S128x64 .f32) (b : Vec Ideal S64 .f32) (p : Fin 32) (n : Fin 64) :
    k4_pay1 x w b (ix2 p n) = (∑ k : Fin 128, x (ix2 p k) * w (ix2 k n)) + b (ix1 n) := by
  unfold k4_pay1
  simp only [shapeCast_self]
  show matmul dot_S32x128_S128x64_S32x64_1_0_0_1_n_n none (truncf .bf16 x bitsLt_bf16_f32) (truncf .bf16 w bitsLt_bf16_f32) (constant (F := Ideal) S32x64 .f32 0x00000000#32) (ix2 p n)
      + broadcastTo S32x64 (shapeCast S1x64 b shapeCasts_S64_S1x64) broadcasts_S1x64_S32x64 (ix2 p n) = _
  rw [tile_row, Cert.LibPlainMatmul.matmul_eq_plain_zero_apply dot_S32x128_S128x64_S32x64_1_0_0_1_n_n rfl none _ _ p n]
  rfl

/-- The host's read-out at an entry: the same sum plus b(n). -/
theorem host_apply (x : (⟨Cert.ReferenceIdeal.S32x128, .f32⟩ : BufTy).Contents (Elt Ideal)) (w : (⟨Cert.ReferenceIdeal.S128x64, .f32⟩ : BufTy).Contents (Elt Ideal))
    (b : (⟨Cert.ReferenceIdeal.S64, .f32⟩ : BufTy).Contents (Elt Ideal)) (p : Fin 32) (n : Fin 64) :
    Cert.Gcn.head (F := Ideal) x w b (ix2 p n) = (∑ k : Fin 128, x (ix2 p k) * w (ix2 k n)) + b (ix1 n) := by
  unfold Cert.Gcn.head
  show Host.dotGeneral (F := Ideal) Cert.ReferenceIdeal.dot_S32x128_S128x64_S32x64_1_0_0_1_n_n none x w (ix2 p n)
      + broadcastInDim Cert.ReferenceIdeal.S32x64 ![0, 1] Cert.ReferenceIdeal.Facts₀.bcast_S1x64_S32x64_0_1
        (broadcastInDim Cert.ReferenceIdeal.S1x64 ![1] Cert.ReferenceIdeal.Facts₀.bcast_S64_S1x64_1 b) (ix2 p n) = _
  rw [host_row, Cert.LibHostPlainDot.dotGeneral_plain_apply Cert.ReferenceIdeal.dot_S32x128_S128x64_S32x64_1_0_0_1_n_n rfl none x w p n]

/-- The kernel's block is the host's read-out of the same arrays. -/
theorem tile_eq_head (x : Vec Ideal S32x128 .f32) (w : Vec Ideal S128x64 .f32) (b : Vec Ideal S64 .f32) :
    k4_pay1 x w b = Cert.Gcn.head (F := Ideal) x w b := by
  funext j
  obtain ⟨p, n, rfl⟩ : ∃ (p : Fin 32) (n : Fin 64), j = ix2 p n := ⟨j 0, j 1, eq_ix2 j⟩
  rw [tile_apply, host_apply]

/-- The printed index maps at the one grid point: every window at block 0. -/
theorem idx_facts : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = 0 ∧ win4_3.index t (1 : Fin 2) = 0 :=
  (by decide +kernel : ∀ t : Fin grid4.N, _)

/-- What the one point writes back is the host's read-out of the arrays the region finds. -/
theorem flushed_eq (c : Dev nD) (t : Fin cfg4.N) :
    (dat4 V c).flushed 3 t = ((cfg4.win 3).blk t).view.read (Elt Ideal) (Cert.Gcn.head (F := Ideal) (V c main_v71) (V c main_arg7) (V c main_arg8)) := by
  show (cfg4.win 3).cut (grid4.coords t) ((dat4 V c).after 3 t) = _
  rw [after4_3]
  unfold out4_3
  rw [View.canon_unit_zero hz2]
  simp only [View.ld_unit_zero (S := S32x128) hz2, View.ld_unit_zero (S := S128x64) hz2, View.ld_unit_zero (S := S64) hz1]
  obtain ⟨e0, e1, e2, e3, e4, e5, e6⟩ := idx_facts t
  have hx : iblk4 V c 0 t = V c main_v71 := by
    funext y
    show V c main_v71 (((cfg4.win 0).blk t).view.emb y) = V c main_v71 y
    congr 1; funext a; apply Fin.ext
    match a with
    | ⟨0, _⟩ => show win4_0.index t (0 : Fin 2) * 32 + 1 * (y 0).val = (y 0).val; omega
    | ⟨1, _⟩ => show win4_0.index t (1 : Fin 2) * 128 + 1 * (y 1).val = (y 1).val; omega
  have hw : iblk4 V c 1 t = V c main_arg7 := by
    funext y
    show V c main_arg7 (((cfg4.win 1).blk t).view.emb y) = V c main_arg7 y
    congr 1; funext a; apply Fin.ext
    match a with
    | ⟨0, _⟩ => show win4_1.index t (0 : Fin 2) * 128 + 1 * (y 0).val = (y 0).val; omega
    | ⟨1, _⟩ => show win4_1.index t (1 : Fin 2) * 64 + 1 * (y 1).val = (y 1).val; omega
  have hb : iblk4 V c 2 t = V c main_arg8 := by
    funext y
    show V c main_arg8 (((cfg4.win 2).blk t).view.emb y) = V c main_arg8 y
    congr 1; funext a; apply Fin.ext
    match a with
    | ⟨0, _⟩ => show win4_2.index t (0 : Fin 1) * 64 + 1 * (y 0).val = (y 0).val; omega
  rw [hx, hw, hb, tile_eq_head]
  funext j
  show Cert.Gcn.head (F := Ideal) (V c main_v71) (V c main_arg7) (V c main_arg8) j
    = Cert.Gcn.head (F := Ideal) (V c main_v71) (V c main_arg7) (V c main_arg8) (((cfg4.win 3).blk t).view.emb j)
  congr 1; funext a; apply Fin.ext
  match a with
  | ⟨0, _⟩ => show (j 0).val = win4_3.index t (0 : Fin 2) * 32 + 1 * (j 0).val; omega
  | ⟨1, _⟩ => show (j 1).val = win4_3.index t (1 : Fin 2) * 64 + 1 * (j 1).val; omega

/-- An index of the result array lies in the one point's block iff each coordinate is in the block's range. -/
theorem mem_blk (t : Fin cfg4.N) (i : S32x64.Idx) :
    i ∈ ((cfg4.win 3).blk t).view.set ↔ ∀ a : Fin 2, win4_3.index t a * S32x64.size a ≤ (i a).val ∧ (i a).val < win4_3.index t a * S32x64.size a + S32x64.size a := by
  show i ∈ ((View.whole main_v72).slice (win4_3.rect t)).set ↔ _
  rw [View.set_slice_whole, Rect.mem_set_unit]
  exact Iff.rfl

/-- The one block is the whole result array. -/
theorem cover (i : S32x64.Idx) : ∃ t : Fin cfg4.N, (cfg4.win 3).flush t = true ∧ i ∈ ((cfg4.win 3).blk t).view.set := by
  have hi0 : (i 0).val < 32 := (i 0).isLt
  have hi1 : (i 1).val < 64 := (i 1).isLt
  have hN : cfg4.N = 1 := N_4
  obtain ⟨t, ht⟩ : ∃ t : Fin cfg4.N, t.val = 0 := ⟨⟨0, by rw [hN]; omega⟩, rfl⟩
  obtain ⟨e0, e1, e2, e3, e4, e5, e6⟩ := idx_facts t
  refine ⟨t, flush4_3 t, ?_⟩
  rw [mem_blk]
  intro a
  match a with
  | ⟨0, _⟩ => show win4_3.index t (0 : Fin 2) * 32 ≤ (i 0).val ∧ (i 0).val < win4_3.index t (0 : Fin 2) * 32 + 32; omega
  | ⟨1, _⟩ => show win4_3.index t (1 : Fin 2) * 64 ≤ (i 1).val ∧ (i 1).val < win4_3.index t (1 : Fin 2) * 64 + 64; omega

/-- After the region its result array is the host's read-out of the arrays it found. -/
theorem region (c : Dev nD) :
    (dat4 V c).arrAt 3 cfg4.N = Cert.Gcn.head (F := Ideal) (V c main_v71) (V c main_arg7) (V c main_arg8) :=
  (dat4 V c).arrAt_eq_of_cover 3 _ (fun t _ => flushed_eq V c t) cover

end Cert.Gcn.Tile4

end
-- ==== Proof.Chain.lean ====
/-
  The contents of a core's buffers at every boundary between the program's segments.

  The run folds the segments from the launch memory: a stretch of host operations changes the buffers it writes,
  a kernel launch changes its result array and nothing else. Read at the buffers the next segment uses, boundary
  by boundary: the message sources, destinations and weights after the first three stretches; after each launch
  its result — the whole matrix product, the bias added and the positive part taken, the read-out — of what the
  previous boundary held; after each later stretch the aggregated rows, and the pooled rows; and every argument,
  which no segment writes, as launched. The last boundary read at the result buffer is the whole network of the
  arguments.
-/
import proofs.«173079_j13039520711474_1_alg».proof.Proof.Gen.KernelIdeal.Frame
import proofs.«173079_j13039520711474_1_alg».proof.Proof.Gen.ReferenceIdeal
import proofs.«173079_j13039520711474_1_alg».proof.Proof.Model
import proofs.«173079_j13039520711474_1_alg».proof.Proof.Stretches
import proofs.«173079_j13039520711474_1_alg».proof.Proof.Tile0
import proofs.«173079_j13039520711474_1_alg».proof.Proof.Tile1
import proofs.«173079_j13039520711474_1_alg».proof.Proof.Tile2
import proofs.«173079_j13039520711474_1_alg».proof.Proof.Tile3
import proofs.«173079_j13039520711474_1_alg».proof.Proof.Tile4

set_option maxRecDepth 16384

noncomputable section

open Idealize.ShloMosaic Idealize.ShloMosaic.TcCoe Idealize.SL.Sem Idealize.ShloMosaic.StableHlo

namespace Cert.Gcn.Chain

open Cert.KernelIdeal Cert.KernelIdeal.Gen

variable (m : (ℓ : Loc nD τ sig) → Buf (Elt Ideal) ℓ) (ρ : Dev nD → PrngReg) (c : Dev nD)

/-! ## After the first stretch -/

theorem W1_v5 : W1 m ρ c (Proc.devRef .tc main_v5) = (Cert.Gcn.srcs (F := Ideal) (m ((c : Thread nD τ).loc main_arg1))) :=
  Stretch.s0_v5 (W0 m ρ c)

theorem W1_v6 : W1 m ρ c (Proc.devRef .tc main_v6) = (Cert.Gcn.dsts (F := Ideal) (m ((c : Thread nD τ).loc main_arg1))) :=
  Stretch.s0_v6 (W0 m ρ c)

theorem W1_v12 : W1 m ρ c (Proc.devRef .tc main_v12) = (Cert.Gcn.degMask (F := Ideal) (m ((c : Thread nD τ).loc main_arg1))) :=
  Stretch.s0_v12 (W0 m ρ c)

theorem W1_v13 : W1 m ρ c (Proc.devRef .tc main_v13) = (Cert.Gcn.degRsqrt (F := Ideal) (m ((c : Thread nD τ).loc main_arg1))) :=
  Stretch.s0_v13 (W0 m ρ c)

theorem W1_cst_2 : W1 m ρ c (Proc.devRef .tc main_cst_2) = (Cert.Gcn.zeroScalar (F := Ideal)) :=
  Stretch.s0_cst_2 (W0 m ρ c)

theorem W1_arg0 : W1 m ρ c (Proc.devRef .tc main_arg0) = (m ((c : Thread nD τ).loc main_arg0)) :=
  Stretch.s0_arg0 (W0 m ρ c)

theorem W1_arg2 : W1 m ρ c (Proc.devRef .tc main_arg2) = (m ((c : Thread nD τ).loc main_arg2)) :=
  Stretch.s0_arg2 (W0 m ρ c)

theorem W1_arg3 : W1 m ρ c (Proc.devRef .tc main_arg3) = (m ((c : Thread nD τ).loc main_arg3)) :=
  Stretch.s0_arg3 (W0 m ρ c)

theorem W1_arg4 : W1 m ρ c (Proc.devRef .tc main_arg4) = (m ((c : Thread nD τ).loc main_arg4)) :=
  Stretch.s0_arg4 (W0 m ρ c)

theorem W1_arg5 : W1 m ρ c (Proc.devRef .tc main_arg5) = (m ((c : Thread nD τ).loc main_arg5)) :=
  Stretch.s0_arg5 (W0 m ρ c)

theorem W1_arg6 : W1 m ρ c (Proc.devRef .tc main_arg6) = (m ((c : Thread nD τ).loc main_arg6)) :=
  Stretch.s0_arg6 (W0 m ρ c)

theorem W1_arg7 : W1 m ρ c (Proc.devRef .tc main_arg7) = (m ((c : Thread nD τ).loc main_arg7)) :=
  Stretch.s0_arg7 (W0 m ρ c)

theorem W1_arg8 : W1 m ρ c (Proc.devRef .tc main_arg8) = (m ((c : Thread nD τ).loc main_arg8)) :=
  Stretch.s0_arg8 (W0 m ρ c)

/-! ## After the second stretch -/

theorem W2_v14 : W2 m ρ c (Proc.devRef .tc main_v14) = (Cert.Gcn.dinv (F := Ideal) (m ((c : Thread nD τ).loc main_arg1))) :=
  (Stretch.s01_v14 (W1 m ρ c)).trans (by rw [W1_v12 m ρ c, W1_v13 m ρ c, W1_cst_2 m ρ c]; rfl)

theorem W2_v5 : W2 m ρ c (Proc.devRef .tc main_v5) = (Cert.Gcn.srcs (F := Ideal) (m ((c : Thread nD τ).loc main_arg1))) :=
  (Stretch.s01_v5 (W1 m ρ c)).trans (W1_v5 m ρ c)

theorem W2_v6 : W2 m ρ c (Proc.devRef .tc main_v6) = (Cert.Gcn.dsts (F := Ideal) (m ((c : Thread nD τ).loc main_arg1))) :=
  (Stretch.s01_v6 (W1 m ρ c)).trans (W1_v6 m ρ c)

theorem W2_arg0 : W2 m ρ c (Proc.devRef .tc main_arg0) = (m ((c : Thread nD τ).loc main_arg0)) :=
  (Stretch.s01_arg0 (W1 m ρ c)).trans (W1_arg0 m ρ c)

theorem W2_arg2 : W2 m ρ c (Proc.devRef .tc main_arg2) = (m ((c : Thread nD τ).loc main_arg2)) :=
  (Stretch.s01_arg2 (W1 m ρ c)).trans (W1_arg2 m ρ c)

theorem W2_arg3 : W2 m ρ c (Proc.devRef .tc main_arg3) = (m ((c : Thread nD τ).loc main_arg3)) :=
  (Stretch.s01_arg3 (W1 m ρ c)).trans (W1_arg3 m ρ c)

theorem W2_arg4 : W2 m ρ c (Proc.devRef .tc main_arg4) = (m ((c : Thread nD τ).loc main_arg4)) :=
  (Stretch.s01_arg4 (W1 m ρ c)).trans (W1_arg4 m ρ c)

theorem W2_arg5 : W2 m ρ c (Proc.devRef .tc main_arg5) = (m ((c : Thread nD τ).loc main_arg5)) :=
  (Stretch.s01_arg5 (W1 m ρ c)).trans (W1_arg5 m ρ c)

theorem W2_arg6 : W2 m ρ c (Proc.devRef .tc main_arg6) = (m ((c : Thread nD τ).loc main_arg6)) :=
  (Stretch.s01_arg6 (W1 m ρ c)).trans (W1_arg6 m ρ c)

theorem W2_arg7 : W2 m ρ c (Proc.devRef .tc main_arg7) = (m ((c : Thread nD τ).loc main_arg7)) :=
  (Stretch.s01_arg7 (W1 m ρ c)).trans (W1_arg7 m ρ c)

theorem W2_arg8 : W2 m ρ c (Proc.devRef .tc main_arg8) = (m ((c : Thread nD τ).loc main_arg8)) :=
  (Stretch.s01_arg8 (W1 m ρ c)).trans (W1_arg8 m ρ c)

/-! ## After the third stretch: the first launch's entry -/

theorem W3_v29 : W3 m ρ c (Proc.devRef .tc main_v29) = (Cert.Gcn.weights (F := Ideal) (m ((c : Thread nD τ).loc main_arg1))) :=
  (Stretch.s02_v29 (W2 m ρ c)).trans (by rw [W2_v14 m ρ c, W2_v5 m ρ c, W2_v6 m ρ c]; rfl)

theorem W3_v5 : W3 m ρ c (Proc.devRef .tc main_v5) = (Cert.Gcn.srcs (F := Ideal) (m ((c : Thread nD τ).loc main_arg1))) :=
  (Stretch.s02_v5 (W2 m ρ c)).trans (W2_v5 m ρ c)

theorem W3_v6 : W3 m ρ c (Proc.devRef .tc main_v6) = (Cert.Gcn.dsts (F := Ideal) (m ((c : Thread nD τ).loc main_arg1))) :=
  (Stretch.s02_v6 (W2 m ρ c)).trans (W2_v6 m ρ c)

theorem W3_arg0 : W3 m ρ c (Proc.devRef .tc main_arg0) = (m ((c : Thread nD τ).loc main_arg0)) :=
  (Stretch.s02_arg0 (W2 m ρ c)).trans (W2_arg0 m ρ c)

theorem W3_arg2 : W3 m ρ c (Proc.devRef .tc main_arg2) = (m ((c : Thread nD τ).loc main_arg2)) :=
  (Stretch.s02_arg2 (W2 m ρ c)).trans (W2_arg2 m ρ c)

theorem W3_arg3 : W3 m ρ c (Proc.devRef .tc main_arg3) = (m ((c : Thread nD τ).loc main_arg3)) :=
  (Stretch.s02_arg3 (W2 m ρ c)).trans (W2_arg3 m ρ c)

theorem W3_arg4 : W3 m ρ c (Proc.devRef .tc main_arg4) = (m ((c : Thread nD τ).loc main_arg4)) :=
  (Stretch.s02_arg4 (W2 m ρ c)).trans (W2_arg4 m ρ c)

theorem W3_arg5 : W3 m ρ c (Proc.devRef .tc main_arg5) = (m ((c : Thread nD τ).loc main_arg5)) :=
  (Stretch.s02_arg5 (W2 m ρ c)).trans (W2_arg5 m ρ c)

theorem W3_arg6 : W3 m ρ c (Proc.devRef .tc main_arg6) = (m ((c : Thread nD τ).loc main_arg6)) :=
  (Stretch.s02_arg6 (W2 m ρ c)).trans (W2_arg6 m ρ c)

theorem W3_arg7 : W3 m ρ c (Proc.devRef .tc main_arg7) = (m ((c : Thread nD τ).loc main_arg7)) :=
  (Stretch.s02_arg7 (W2 m ρ c)).trans (W2_arg7 m ρ c)

theorem W3_arg8 : W3 m ρ c (Proc.devRef .tc main_arg8) = (m ((c : Thread nD τ).loc main_arg8)) :=
  (Stretch.s02_arg8 (W2 m ρ c)).trans (W2_arg8 m ρ c)

/-! ## After the first launch: the first layer's matrix product -/

theorem W4_v30 : W4 m ρ c (Proc.devRef .tc main_v30) = (Cert.Gcn.dense (F := Ideal) (m ((c : Thread nD τ).loc main_arg0)) (m ((c : Thread nD τ).loc main_arg3))) := by
  refine (W4_arr m ρ c 2).trans ((Tile0.region (V3 m ρ) c).trans ?_)
  show Cert.Gcn.dense (F := Ideal) (W3 m ρ c (Proc.devRef .tc main_arg0)) (W3 m ρ c (Proc.devRef .tc main_arg3)) = _
  rw [W3_arg0 m ρ c, W3_arg3 m ρ c]

theorem W4_v5 : W4 m ρ c (Proc.devRef .tc main_v5) = (Cert.Gcn.srcs (F := Ideal) (m ((c : Thread nD τ).loc main_arg1))) :=
  (W4_of_ne m ρ c main_v5 (by decide)).trans (W3_v5 m ρ c)

theorem W4_v6 : W4 m ρ c (Proc.devRef .tc main_v6) = (Cert.Gcn.dsts (F := Ideal) (m ((c : Thread nD τ).loc main_arg1))) :=
  (W4_of_ne m ρ c main_v6 (by decide)).trans (W3_v6 m ρ c)

theorem W4_v29 : W4 m ρ c (Proc.devRef .tc main_v29) = (Cert.Gcn.weights (F := Ideal) (m ((c : Thread nD τ).loc main_arg1))) :=
  (W4_of_ne m ρ c main_v29 (by decide)).trans (W3_v29 m ρ c)

theorem W4_arg2 : W4 m ρ c (Proc.devRef .tc main_arg2) = (m ((c : Thread nD τ).loc main_arg2)) :=
  (W4_of_ne m ρ c main_arg2 (by decide)).trans (W3_arg2 m ρ c)

theorem W4_arg4 : W4 m ρ c (Proc.devRef .tc main_arg4) = (m ((c : Thread nD τ).loc main_arg4)) :=
  (W4_of_ne m ρ c main_arg4 (by decide)).trans (W3_arg4 m ρ c)

theorem W4_arg5 : W4 m ρ c (Proc.devRef .tc main_arg5) = (m ((c : Thread nD τ).loc main_arg5)) :=
  (W4_of_ne m ρ c main_arg5 (by decide)).trans (W3_arg5 m ρ c)

theorem W4_arg6 : W4 m ρ c (Proc.devRef .tc main_arg6) = (m ((c : Thread nD τ).loc main_arg6)) :=
  (W4_of_ne m ρ c main_arg6 (by decide)).trans (W3_arg6 m ρ c)

theorem W4_arg7 : W4 m ρ c (Proc.devRef .tc main_arg7) = (m ((c : Thread nD τ).loc main_arg7)) :=
  (W4_of_ne m ρ c main_arg7 (by decide)).trans (W3_arg7 m ρ c)

theorem W4_arg8 : W4 m ρ c (Proc.devRef .tc main_arg8) = (m ((c : Thread nD τ).loc main_arg8)) :=
  (W4_of_ne m ρ c main_arg8 (by decide)).trans (W3_arg8 m ρ c)

/-! ## After the stretch behind it: the first layer's aggregated rows -/

theorem W5_v43 : W5 m ρ c (Proc.devRef .tc main_v43) = (Cert.Gcn.aggregate (F := Ideal) (Cert.Gcn.srcs (F := Ideal) (m ((c : Thread nD τ).loc main_arg1))) (Cert.Gcn.dsts (F := Ideal) (m ((c : Thread nD τ).loc main_arg1))) (Cert.Gcn.weights (F := Ideal) (m ((c : Thread nD τ).loc main_arg1))) (Cert.Gcn.dense (F := Ideal) (m ((c : Thread nD τ).loc main_arg0)) (m ((c : Thread nD τ).loc main_arg3)))) :=
  (Stretch.s1_v43 (W4 m ρ c)).trans (by rw [W4_v5 m ρ c, W4_v6 m ρ c, W4_v29 m ρ c, W4_v30 m ρ c])

theorem W5_v5 : W5 m ρ c (Proc.devRef .tc main_v5) = (Cert.Gcn.srcs (F := Ideal) (m ((c : Thread nD τ).loc main_arg1))) :=
  (Stretch.s1_v5 (W4 m ρ c)).trans (W4_v5 m ρ c)

theorem W5_v6 : W5 m ρ c (Proc.devRef .tc main_v6) = (Cert.Gcn.dsts (F := Ideal) (m ((c : Thread nD τ).loc main_arg1))) :=
  (Stretch.s1_v6 (W4 m ρ c)).trans (W4_v6 m ρ c)

theorem W5_v29 : W5 m ρ c (Proc.devRef .tc main_v29) = (Cert.Gcn.weights (F := Ideal) (m ((c : Thread nD τ).loc main_arg1))) :=
  (Stretch.s1_v29 (W4 m ρ c)).trans (W4_v29 m ρ c)

theorem W5_arg2 : W5 m ρ c (Proc.devRef .tc main_arg2) = (m ((c : Thread nD τ).loc main_arg2)) :=
  (Stretch.s1_arg2 (W4 m ρ c)).trans (W4_arg2 m ρ c)

theorem W5_arg4 : W5 m ρ c (Proc.devRef .tc main_arg4) = (m ((c : Thread nD τ).loc main_arg4)) :=
  (Stretch.s1_arg4 (W4 m ρ c)).trans (W4_arg4 m ρ c)

theorem W5_arg5 : W5 m ρ c (Proc.devRef .tc main_arg5) = (m ((c : Thread nD τ).loc main_arg5)) :=
  (Stretch.s1_arg5 (W4 m ρ c)).trans (W4_arg5 m ρ c)

theorem W5_arg6 : W5 m ρ c (Proc.devRef .tc main_arg6) = (m ((c : Thread nD τ).loc main_arg6)) :=
  (Stretch.s1_arg6 (W4 m ρ c)).trans (W4_arg6 m ρ c)

theorem W5_arg7 : W5 m ρ c (Proc.devRef .tc main_arg7) = (m ((c : Thread nD τ).loc main_arg7)) :=
  (Stretch.s1_arg7 (W4 m ρ c)).trans (W4_arg7 m ρ c)

theorem W5_arg8 : W5 m ρ c (Proc.devRef .tc main_arg8) = (m ((c : Thread nD τ).loc main_arg8)) :=
  (Stretch.s1_arg8 (W4 m ρ c)).trans (W4_arg8 m ρ c)

/-! ## After the second launch: the first layer's output -/

theorem W6_v44 : W6 m ρ c (Proc.devRef .tc main_v44) = (Cert.Gcn.biasRelu (F := Ideal) (Cert.Gcn.aggregate (F := Ideal) (Cert.Gcn.srcs (F := Ideal) (m ((c : Thread nD τ).loc main_arg1))) (Cert.Gcn.dsts (F := Ideal) (m ((c : Thread nD τ).loc main_arg1))) (Cert.Gcn.weights (F := Ideal) (m ((c : Thread nD τ).loc main_arg1))) (Cert.Gcn.dense (F := Ideal) (m ((c : Thread nD τ).loc main_arg0)) (m ((c : Thread nD τ).loc main_arg3)))) (m ((c : Thread nD τ).loc main_arg4))) := by
  refine (W6_arr m ρ c 2).trans ((Tile1.region (V5 m ρ) c).trans ?_)
  show Cert.Gcn.biasRelu (F := Ideal) (W5 m ρ c (Proc.devRef .tc main_v43)) (W5 m ρ c (Proc.devRef .tc main_arg4)) = _
  rw [W5_v43 m ρ c, W5_arg4 m ρ c]

theorem W6_v5 : W6 m ρ c (Proc.devRef .tc main_v5) = (Cert.Gcn.srcs (F := Ideal) (m ((c : Thread nD τ).loc main_arg1))) :=
  (W6_of_ne m ρ c main_v5 (by decide)).trans (W5_v5 m ρ c)

theorem W6_v6 : W6 m ρ c (Proc.devRef .tc main_v6) = (Cert.Gcn.dsts (F := Ideal) (m ((c : Thread nD τ).loc main_arg1))) :=
  (W6_of_ne m ρ c main_v6 (by decide)).trans (W5_v6 m ρ c)

theorem W6_v29 : W6 m ρ c (Proc.devRef .tc main_v29) = (Cert.Gcn.weights (F := Ideal) (m ((c : Thread nD τ).loc main_arg1))) :=
  (W6_of_ne m ρ c main_v29 (by decide)).trans (W5_v29 m ρ c)

theorem W6_arg2 : W6 m ρ c (Proc.devRef .tc main_arg2) = (m ((c : Thread nD τ).loc main_arg2)) :=
  (W6_of_ne m ρ c main_arg2 (by decide)).trans (W5_arg2 m ρ c)

theorem W6_arg5 : W6 m ρ c (Proc.devRef .tc main_arg5) = (m ((c : Thread nD τ).loc main_arg5)) :=
  (W6_of_ne m ρ c main_arg5 (by decide)).trans (W5_arg5 m ρ c)

theorem W6_arg6 : W6 m ρ c (Proc.devRef .tc main_arg6) = (m ((c : Thread nD τ).loc main_arg6)) :=
  (W6_of_ne m ρ c main_arg6 (by decide)).trans (W5_arg6 m ρ c)

theorem W6_arg7 : W6 m ρ c (Proc.devRef .tc main_arg7) = (m ((c : Thread nD τ).loc main_arg7)) :=
  (W6_of_ne m ρ c main_arg7 (by decide)).trans (W5_arg7 m ρ c)

theorem W6_arg8 : W6 m ρ c (Proc.devRef .tc main_arg8) = (m ((c : Thread nD τ).loc main_arg8)) :=
  (W6_of_ne m ρ c main_arg8 (by decide)).trans (W5_arg8 m ρ c)

/-! ## After the third launch: the second layer's matrix product -/

theorem W7_v45 : W7 m ρ c (Proc.devRef .tc main_v45) = (Cert.Gcn.dense (F := Ideal) (Cert.Gcn.biasRelu (F := Ideal) (Cert.Gcn.aggregate (F := Ideal) (Cert.Gcn.srcs (F := Ideal) (m ((c : Thread nD τ).loc main_arg1))) (Cert.Gcn.dsts (F := Ideal) (m ((c : Thread nD τ).loc main_arg1))) (Cert.Gcn.weights (F := Ideal) (m ((c : Thread nD τ).loc main_arg1))) (Cert.Gcn.dense (F := Ideal) (m ((c : Thread nD τ).loc main_arg0)) (m ((c : Thread nD τ).loc main_arg3)))) (m ((c : Thread nD τ).loc main_arg4))) (m ((c : Thread nD τ).loc main_arg5))) := by
  refine (W7_arr m ρ c 2).trans ((Tile2.region (V6 m ρ) c).trans ?_)
  show Cert.Gcn.dense (F := Ideal) (W6 m ρ c (Proc.devRef .tc main_v44)) (W6 m ρ c (Proc.devRef .tc main_arg5)) = _
  rw [W6_v44 m ρ c, W6_arg5 m ρ c]

theorem W7_v5 : W7 m ρ c (Proc.devRef .tc main_v5) = (Cert.Gcn.srcs (F := Ideal) (m ((c : Thread nD τ).loc main_arg1))) :=
  (W7_of_ne m ρ c main_v5 (by decide)).trans (W6_v5 m ρ c)

theorem W7_v6 : W7 m ρ c (Proc.devRef .tc main_v6) = (Cert.Gcn.dsts (F := Ideal) (m ((c : Thread nD τ).loc main_arg1))) :=
  (W7_of_ne m ρ c main_v6 (by decide)).trans (W6_v6 m ρ c)

theorem W7_v29 : W7 m ρ c (Proc.devRef .tc main_v29) = (Cert.Gcn.weights (F := Ideal) (m ((c : Thread nD τ).loc main_arg1))) :=
  (W7_of_ne m ρ c main_v29 (by decide)).trans (W6_v29 m ρ c)

theorem W7_arg2 : W7 m ρ c (Proc.devRef .tc main_arg2) = (m ((c : Thread nD τ).loc main_arg2)) :=
  (W7_of_ne m ρ c main_arg2 (by decide)).trans (W6_arg2 m ρ c)

theorem W7_arg6 : W7 m ρ c (Proc.devRef .tc main_arg6) = (m ((c : Thread nD τ).loc main_arg6)) :=
  (W7_of_ne m ρ c main_arg6 (by decide)).trans (W6_arg6 m ρ c)

theorem W7_arg7 : W7 m ρ c (Proc.devRef .tc main_arg7) = (m ((c : Thread nD τ).loc main_arg7)) :=
  (W7_of_ne m ρ c main_arg7 (by decide)).trans (W6_arg7 m ρ c)

theorem W7_arg8 : W7 m ρ c (Proc.devRef .tc main_arg8) = (m ((c : Thread nD τ).loc main_arg8)) :=
  (W7_of_ne m ρ c main_arg8 (by decide)).trans (W6_arg8 m ρ c)

/-! ## After the stretch behind it: the second layer's aggregated rows -/

theorem W8_v58 : W8 m ρ c (Proc.devRef .tc main_v58) = (Cert.Gcn.aggregate (F := Ideal) (Cert.Gcn.srcs (F := Ideal) (m ((c : Thread nD τ).loc main_arg1))) (Cert.Gcn.dsts (F := Ideal) (m ((c : Thread nD τ).loc main_arg1))) (Cert.Gcn.weights (F := Ideal) (m ((c : Thread nD τ).loc main_arg1))) (Cert.Gcn.dense (F := Ideal) (Cert.Gcn.biasRelu (F := Ideal) (Cert.Gcn.aggregate (F := Ideal) (Cert.Gcn.srcs (F := Ideal) (m ((c : Thread nD τ).loc main_arg1))) (Cert.Gcn.dsts (F := Ideal) (m ((c : Thread nD τ).loc main_arg1))) (Cert.Gcn.weights (F := Ideal) (m ((c : Thread nD τ).loc main_arg1))) (Cert.Gcn.dense (F := Ideal) (m ((c : Thread nD τ).loc main_arg0)) (m ((c : Thread nD τ).loc main_arg3)))) (m ((c : Thread nD τ).loc main_arg4))) (m ((c : Thread nD τ).loc main_arg5)))) :=
  (Stretch.s3_v58 (W7 m ρ c)).trans (by rw [W7_v5 m ρ c, W7_v6 m ρ c, W7_v29 m ρ c, W7_v45 m ρ c])

theorem W8_arg2 : W8 m ρ c (Proc.devRef .tc main_arg2) = (m ((c : Thread nD τ).loc main_arg2)) :=
  (Stretch.s3_arg2 (W7 m ρ c)).trans (W7_arg2 m ρ c)

theorem W8_arg6 : W8 m ρ c (Proc.devRef .tc main_arg6) = (m ((c : Thread nD τ).loc main_arg6)) :=
  (Stretch.s3_arg6 (W7 m ρ c)).trans (W7_arg6 m ρ c)

theorem W8_arg7 : W8 m ρ c (Proc.devRef .tc main_arg7) = (m ((c : Thread nD τ).loc main_arg7)) :=
  (Stretch.s3_arg7 (W7 m ρ c)).trans (W7_arg7 m ρ c)

theorem W8_arg8 : W8 m ρ c (Proc.devRef .tc main_arg8) = (m ((c : Thread nD τ).loc main_arg8)) :=
  (Stretch.s3_arg8 (W7 m ρ c)).trans (W7_arg8 m ρ c)

/-! ## After the fourth launch: the second layer's output -/

theorem W9_v59 : W9 m ρ c (Proc.devRef .tc main_v59) = (Cert.Gcn.biasRelu (F := Ideal) (Cert.Gcn.aggregate (F := Ideal) (Cert.Gcn.srcs (F := Ideal) (m ((c : Thread nD τ).loc main_arg1))) (Cert.Gcn.dsts (F := Ideal) (m ((c : Thread nD τ).loc main_arg1))) (Cert.Gcn.weights (F := Ideal) (m ((c : Thread nD τ).loc main_arg1))) (Cert.Gcn.dense (F := Ideal) (Cert.Gcn.biasRelu (F := Ideal) (Cert.Gcn.aggregate (F := Ideal) (Cert.Gcn.srcs (F := Ideal) (m ((c : Thread nD τ).loc main_arg1))) (Cert.Gcn.dsts (F := Ideal) (m ((c : Thread nD τ).loc main_arg1))) (Cert.Gcn.weights (F := Ideal) (m ((c : Thread nD τ).loc main_arg1))) (Cert.Gcn.dense (F := Ideal) (m ((c : Thread nD τ).loc main_arg0)) (m ((c : Thread nD τ).loc main_arg3)))) (m ((c : Thread nD τ).loc main_arg4))) (m ((c : Thread nD τ).loc main_arg5)))) (m ((c : Thread nD τ).loc main_arg6))) := by
  refine (W9_arr m ρ c 2).trans ((Tile3.region (V8 m ρ) c).trans ?_)
  show Cert.Gcn.biasRelu (F := Ideal) (W8 m ρ c (Proc.devRef .tc main_v58)) (W8 m ρ c (Proc.devRef .tc main_arg6)) = _
  rw [W8_v58 m ρ c, W8_arg6 m ρ c]

theorem W9_arg2 : W9 m ρ c (Proc.devRef .tc main_arg2) = (m ((c : Thread nD τ).loc main_arg2)) :=
  (W9_of_ne m ρ c main_arg2 (by decide)).trans (W8_arg2 m ρ c)

theorem W9_arg7 : W9 m ρ c (Proc.devRef .tc main_arg7) = (m ((c : Thread nD τ).loc main_arg7)) :=
  (W9_of_ne m ρ c main_arg7 (by decide)).trans (W8_arg7 m ρ c)

theorem W9_arg8 : W9 m ρ c (Proc.devRef .tc main_arg8) = (m ((c : Thread nD τ).loc main_arg8)) :=
  (W9_of_ne m ρ c main_arg8 (by decide)).trans (W8_arg8 m ρ c)

/-! ## After the last stretch: the pooled rows -/

theorem W10_v71 : W10 m ρ c (Proc.devRef .tc main_v71) = (Cert.Gcn.pool (F := Ideal) (m ((c : Thread nD τ).loc main_arg2)) (Cert.Gcn.biasRelu (F := Ideal) (Cert.Gcn.aggregate (F := Ideal) (Cert.Gcn.srcs (F := Ideal) (m ((c : Thread nD τ).loc main_arg1))) (Cert.Gcn.dsts (F := Ideal) (m ((c : Thread nD τ).loc main_arg1))) (Cert.Gcn.weights (F := Ideal) (m ((c : Thread nD τ).loc main_arg1))) (Cert.Gcn.dense (F := Ideal) (Cert.Gcn.biasRelu (F := Ideal) (Cert.Gcn.aggregate (F := Ideal) (Cert.Gcn.srcs (F := Ideal) (m ((c : Thread nD τ).loc main_arg1))) (Cert.Gcn.dsts (F := Ideal) (m ((c : Thread nD τ).loc main_arg1))) (Cert.Gcn.weights (F := Ideal) (m ((c : Thread nD τ).loc main_arg1))) (Cert.Gcn.dense (F := Ideal) (m ((c : Thread nD τ).loc main_arg0)) (m ((c : Thread nD τ).loc main_arg3)))) (m ((c : Thread nD τ).loc main_arg4))) (m ((c : Thread nD τ).loc main_arg5)))) (m ((c : Thread nD τ).loc main_arg6)))) :=
  (Stretch.s4_v71 (W9 m ρ c)).trans (by rw [W9_arg2 m ρ c, W9_v59 m ρ c])

theorem W10_arg7 : W10 m ρ c (Proc.devRef .tc main_arg7) = (m ((c : Thread nD τ).loc main_arg7)) :=
  (Stretch.s4_arg7 (W9 m ρ c)).trans (W9_arg7 m ρ c)

theorem W10_arg8 : W10 m ρ c (Proc.devRef .tc main_arg8) = (m ((c : Thread nD τ).loc main_arg8)) :=
  (Stretch.s4_arg8 (W9 m ρ c)).trans (W9_arg8 m ρ c)

/-! ## After the last launch: the result -/

/-- The result buffer at the last boundary holds the whole network of the arguments. -/
theorem result : W11 m ρ c (Proc.devRef .tc main_v72)
    = Cert.Gcn.forward (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W11_arr m ρ c 3).trans ((Tile4.region (V10 m ρ) c).trans ?_)
  show Cert.Gcn.head (F := Ideal) (W10 m ρ c (Proc.devRef .tc main_v71)) (W10 m ρ c (Proc.devRef .tc main_arg7)) (W10 m ρ c (Proc.devRef .tc main_arg8)) = _
  rw [W10_v71 m ρ c, W10_arg7 m ρ c, W10_arg8 m ρ c]
  rfl

end Cert.Gcn.Chain

end
-- ==== Proof.RefRun.lean ====
/-
  The reference program's run.

  The reference is a straight line of 142 host operations in single-assignment form, so every weakly fair execution
  runs them in order and terminates, and afterwards each buffer holds its operation's function of what its operands
  hold. Followed from the result buffer back to the arguments, that composition is the whole network `forward` of
  the argument arrays: the two layers (matrix product, gather along the messages, scale, add up at the destinations,
  bias, positive part), the mean over each graph and the read-out. The node degree and the message weights are
  computed once per layer from the same edge list, hence are the same arrays in both layers. No operation writes an
  argument.
-/
import proofs.«173079_j13039520711474_1_alg».proof.Proof.Gen.ReferenceIdeal
import proofs.«173079_j13039520711474_1_alg».proof.Proof.Model
import Idealize.ShloMosaic.Lib.StableHlo.Run

noncomputable section

namespace Cert.Gcn.Ref

open Cert.ReferenceIdeal Cert.ReferenceIdeal.Gen Idealize.ShloMosaic Idealize.ShloMosaic.TcCoe Idealize.SL.Sem Idealize.ShloMosaic.StableHlo

variable {F : FTy → Type} [FloatOps F]

/-- The reference's 142 host operations, in program order; the operations of a called function stand where it is called. -/
abbrev ops : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg3 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_v5 (iotaInDim S50000 32 0),
    binary main_v1 main_v5 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v5 main_v7 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v8 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v7 main_v10 (broadcastInDim S850000x1 ![0] bcast_S850000_S850000x1_0 : (⟨S850000, .i32⟩ : BufTy).Contents (Elt F) → (⟨S850000x1, .i32⟩ : BufTy).Contents (Elt F)),
    ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    unary main_v11 main_v14 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v14) (TRef.of (T := ⟨S50000, .f32⟩) main_call0_v1) (TRef.of (T := ⟨S50000, .f32⟩) main_v15) select,
    nullary main_c (constantI S_ 32 0#32),
    unary main_c main_v16 (broadcastInDim S850000 ![] bcast_S_S850000 : (⟨S_, .i32⟩ : BufTy).Contents (Elt F) → (⟨S850000, .i32⟩ : BufTy).Contents (Elt F)),
    binary main_v6 main_v16 main_v17 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v18 (broadcastInDim S850000 ![] bcast_S_S850000 : (⟨S_, .i32⟩ : BufTy).Contents (Elt F) → (⟨S850000, .i32⟩ : BufTy).Contents (Elt F)),
    binary main_v6 main_v18 main_v19 (addi : (⟨S850000, .i32⟩ : BufTy).Contents (Elt F) → (⟨S850000, .i32⟩ : BufTy).Contents (Elt F) → (⟨S850000, .i32⟩ : BufTy).Contents (Elt F)),
    ternary main_v17 main_v19 main_v6 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v20 main_v21 (broadcastInDim S850000x1 ![0] bcast_S850000_S850000x1_0 : (⟨S850000, .i32⟩ : BufTy).Contents (Elt F) → (⟨S850000x1, .i32⟩ : BufTy).Contents (Elt F)),
    binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v23 (broadcastInDim S850000 ![] bcast_S_S850000 : (⟨S_, .i32⟩ : BufTy).Contents (Elt F) → (⟨S850000, .i32⟩ : BufTy).Contents (Elt F)),
    binary main_v7 main_v23 main_v24 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v25 (broadcastInDim S850000 ![] bcast_S_S850000 : (⟨S_, .i32⟩ : BufTy).Contents (Elt F) → (⟨S850000, .i32⟩ : BufTy).Contents (Elt F)),
    binary main_v7 main_v25 main_v26 (addi : (⟨S850000, .i32⟩ : BufTy).Contents (Elt F) → (⟨S850000, .i32⟩ : BufTy).Contents (Elt F) → (⟨S850000, .i32⟩ : BufTy).Contents (Elt F)),
    ternary main_v24 main_v26 main_v7 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v27 main_v28 (broadcastInDim S850000x1 ![0] bcast_S850000_S850000x1_0 : (⟨S850000, .i32⟩ : BufTy).Contents (Elt F) → (⟨S850000x1, .i32⟩ : BufTy).Contents (Elt F)),
    binary main_v15 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v22 main_v29 main_v30 (mulf : (⟨S850000, .f32⟩ : BufTy).Contents (Elt F) → (⟨S850000, .f32⟩ : BufTy).Contents (Elt F) → (⟨S850000, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v6 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v6 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v6 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v4 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v30 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x128 ![0, 1] bcast_S850000x1_S850000x128_0_1 : (⟨S850000x1, .f32⟩ : BufTy).Contents (Elt F) → (⟨S850000x128, .f32⟩ : BufTy).Contents (Elt F)),
    binary main_v37 main_v39 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v7 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg4 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf,
    binary main_v47 main_arg5 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_v49 (iotaInDim S50000 32 0),
    binary main_v1 main_v49 main_v50 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v49 main_v51 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_9 (constant S_ .f32 0x3F800000#32),
    unary main_cst_9 main_v52 (broadcastInDim S850000 ![] bcast_S_S850000 : (⟨S_, .f32⟩ : BufTy).Contents (Elt F) → (⟨S850000, .f32⟩ : BufTy).Contents (Elt F)),
    nullary main_cst_10 (constant S_ .f32 0x00000000#32),
    unary main_cst_10 main_v53 (broadcastInDim S50000 ![] bcast_S_S50000 : (⟨S_, .f32⟩ : BufTy).Contents (Elt F) → (⟨S50000, .f32⟩ : BufTy).Contents (Elt F)),
    unary main_v51 main_v54 (broadcastInDim S850000x1 ![0] bcast_S850000_S850000x1_0 : (⟨S850000, .i32⟩ : BufTy).Contents (Elt F) → (⟨S850000x1, .i32⟩ : BufTy).Contents (Elt F)),
    ternary main_v53 main_v54 main_v52 main_v55 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_11 (constant S_ .f32 0x00000000#32),
    unary main_cst_11 main_v56 (broadcastInDim S50000 ![] bcast_S_S50000 : (⟨S_, .f32⟩ : BufTy).Contents (Elt F) → (⟨S50000, .f32⟩ : BufTy).Contents (Elt F)),
    binary main_v55 main_v56 main_v57 (cmpf .ogt : (⟨S50000, .f32⟩ : BufTy).Contents (Elt F) → (⟨S50000, .f32⟩ : BufTy).Contents (Elt F) → (⟨S50000, .i1⟩ : BufTy).Contents (Elt F)),
    unary main_v55 main_v58 (Host.rsqrt : (⟨S50000, .f32⟩ : BufTy).Contents (Elt F) → (⟨S50000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v57) (TRef.of (T := ⟨S50000, .f32⟩) main_v58) (TRef.of (T := ⟨S50000, .f32⟩) main_call2_v1) (TRef.of (T := ⟨S50000, .f32⟩) main_v59) select,
    nullary main_c_13 (constantI S_ 32 0#32),
    unary main_c_13 main_v60 (broadcastInDim S850000 ![] bcast_S_S850000 : (⟨S_, .i32⟩ : BufTy).Contents (Elt F) → (⟨S850000, .i32⟩ : BufTy).Contents (Elt F)),
    binary main_v50 main_v60 main_v61 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v62 (broadcastInDim S850000 ![] bcast_S_S850000 : (⟨S_, .i32⟩ : BufTy).Contents (Elt F) → (⟨S850000, .i32⟩ : BufTy).Contents (Elt F)),
    binary main_v50 main_v62 main_v63 (addi : (⟨S850000, .i32⟩ : BufTy).Contents (Elt F) → (⟨S850000, .i32⟩ : BufTy).Contents (Elt F) → (⟨S850000, .i32⟩ : BufTy).Contents (Elt F)),
    ternary main_v61 main_v63 main_v50 main_v64 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v64 main_v65 (broadcastInDim S850000x1 ![0] bcast_S850000_S850000x1_0 : (⟨S850000, .i32⟩ : BufTy).Contents (Elt F) → (⟨S850000x1, .i32⟩ : BufTy).Contents (Elt F)),
    binary main_v59 main_v65 main_v66 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_15 (constantI S_ 32 0#32),
    unary main_c_15 main_v67 (broadcastInDim S850000 ![] bcast_S_S850000 : (⟨S_, .i32⟩ : BufTy).Contents (Elt F) → (⟨S850000, .i32⟩ : BufTy).Contents (Elt F)),
    binary main_v51 main_v67 main_v68 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v69 (broadcastInDim S850000 ![] bcast_S_S850000 : (⟨S_, .i32⟩ : BufTy).Contents (Elt F) → (⟨S850000, .i32⟩ : BufTy).Contents (Elt F)),
    binary main_v51 main_v69 main_v70 (addi : (⟨S850000, .i32⟩ : BufTy).Contents (Elt F) → (⟨S850000, .i32⟩ : BufTy).Contents (Elt F) → (⟨S850000, .i32⟩ : BufTy).Contents (Elt F)),
    ternary main_v68 main_v70 main_v51 main_v71 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v71 main_v72 (broadcastInDim S850000x1 ![0] bcast_S850000_S850000x1_0 : (⟨S850000, .i32⟩ : BufTy).Contents (Elt F) → (⟨S850000x1, .i32⟩ : BufTy).Contents (Elt F)),
    binary main_v59 main_v72 main_v73 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v66 main_v73 main_v74 (mulf : (⟨S850000, .f32⟩ : BufTy).Contents (Elt F) → (⟨S850000, .f32⟩ : BufTy).Contents (Elt F) → (⟨S850000, .f32⟩ : BufTy).Contents (Elt F)),
    nullary main_c_17 (constantI S_ 32 0#32),
    unary main_c_17 main_v75 (broadcastInDim S850000 ![] bcast_S_S850000 : (⟨S_, .i32⟩ : BufTy).Contents (Elt F) → (⟨S850000, .i32⟩ : BufTy).Contents (Elt F)),
    binary main_v50 main_v75 main_v76 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v77 (broadcastInDim S850000 ![] bcast_S_S850000 : (⟨S_, .i32⟩ : BufTy).Contents (Elt F) → (⟨S850000, .i32⟩ : BufTy).Contents (Elt F)),
    binary main_v50 main_v77 main_v78 (addi : (⟨S850000, .i32⟩ : BufTy).Contents (Elt F) → (⟨S850000, .i32⟩ : BufTy).Contents (Elt F) → (⟨S850000, .i32⟩ : BufTy).Contents (Elt F)),
    ternary main_v76 main_v78 main_v50 main_v79 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v79 main_v80 (broadcastInDim S850000x1 ![0] bcast_S850000_S850000x1_0 : (⟨S850000, .i32⟩ : BufTy).Contents (Elt F) → (⟨S850000x1, .i32⟩ : BufTy).Contents (Elt F)),
    binary main_v48 main_v80 main_v81 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v74 main_v82 (broadcastInDim S850000x1 ![0] bcast_S850000_S850000x1_0 : (⟨S850000, .f32⟩ : BufTy).Contents (Elt F) → (⟨S850000x1, .f32⟩ : BufTy).Contents (Elt F)),
    unary main_v82 main_v83 (broadcastInDim S850000x128 ![0, 1] bcast_S850000x1_S850000x128_0_1 : (⟨S850000x1, .f32⟩ : BufTy).Contents (Elt F) → (⟨S850000x128, .f32⟩ : BufTy).Contents (Elt F)),
    binary main_v81 main_v83 main_v84 (mulf : (⟨S850000x128, .f32⟩ : BufTy).Contents (Elt F) → (⟨S850000x128, .f32⟩ : BufTy).Contents (Elt F) → (⟨S850000x128, .f32⟩ : BufTy).Contents (Elt F)),
    nullary main_cst_19 (constant S_ .f32 0x00000000#32),
    unary main_cst_19 main_v85 (broadcastInDim S50000x128 ![] bcast_S_S50000x128 : (⟨S_, .f32⟩ : BufTy).Contents (Elt F) → (⟨S50000x128, .f32⟩ : BufTy).Contents (Elt F)),
    unary main_v51 main_v86 (broadcastInDim S850000x1 ![0] bcast_S850000_S850000x1_0 : (⟨S850000, .i32⟩ : BufTy).Contents (Elt F) → (⟨S850000x1, .i32⟩ : BufTy).Contents (Elt F)),
    ternary main_v85 main_v86 main_v84 main_v87 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg6 main_v88 (broadcastInDim S1x128 ![1] bcast_S128_S1x128_1 : (⟨S128, .f32⟩ : BufTy).Contents (Elt F) → (⟨S1x128, .f32⟩ : BufTy).Contents (Elt F)),
    unary main_v88 main_v89 (broadcastInDim S50000x128 ![0, 1] bcast_S1x128_S50000x128_0_1 : (⟨S1x128, .f32⟩ : BufTy).Contents (Elt F) → (⟨S50000x128, .f32⟩ : BufTy).Contents (Elt F)),
    binary main_v87 main_v89 main_v90 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v90) (TRef.of (T := ⟨S50000x128, .f32⟩) main_call3_v0) (TRef.of (T := ⟨S50000x128, .f32⟩) main_v91) maximumf,
    nullary main_cst_20 (constant S_ .f32 0x00000000#32),
    unary main_cst_20 main_v92 (broadcastInDim S32x128 ![] bcast_S_S32x128 : (⟨S_, .f32⟩ : BufTy).Contents (Elt F) → (⟨S32x128, .f32⟩ : BufTy).Contents (Elt F)),
    unary main_arg2 main_v93 (broadcastInDim S50000x1 ![0] bcast_S50000_S50000x1_0 : (⟨S50000, .i32⟩ : BufTy).Contents (Elt F) → (⟨S50000x1, .i32⟩ : BufTy).Contents (Elt F)),
    ternary main_v92 main_v93 main_v91 main_v94 ((fun x i u => Host.scatterAdd scatter_S32x128_S50000x1_S50000x128_1_0_0_1 x i u) : (⟨S32x128, .f32⟩ : BufTy).Contents (Elt F) → (⟨S50000x1, .i32⟩ : BufTy).Contents (Elt F) → (⟨S50000x128, .f32⟩ : BufTy).Contents (Elt F) → (⟨S32x128, .f32⟩ : BufTy).Contents (Elt F)),
    nullary main_cst_21 (constant S_ .f32 0x3F800000#32),
    unary main_cst_21 main_v95 (broadcastInDim S50000 ![] bcast_S_S50000 : (⟨S_, .f32⟩ : BufTy).Contents (Elt F) → (⟨S50000, .f32⟩ : BufTy).Contents (Elt F)),
    nullary main_cst_22 (constant S_ .f32 0x00000000#32),
    unary main_cst_22 main_v96 (broadcastInDim S32 ![] bcast_S_S32 : (⟨S_, .f32⟩ : BufTy).Contents (Elt F) → (⟨S32, .f32⟩ : BufTy).Contents (Elt F)),
    unary main_arg2 main_v97 (broadcastInDim S50000x1 ![0] bcast_S50000_S50000x1_0 : (⟨S50000, .i32⟩ : BufTy).Contents (Elt F) → (⟨S50000x1, .i32⟩ : BufTy).Contents (Elt F)),
    ternary main_v96 main_v97 main_v95 main_v98 ((fun x i u => Host.scatterAdd scatter_S32_S50000x1_S50000_n_0_0_1 x i u) : (⟨S32, .f32⟩ : BufTy).Contents (Elt F) → (⟨S50000x1, .i32⟩ : BufTy).Contents (Elt F) → (⟨S50000, .f32⟩ : BufTy).Contents (Elt F) → (⟨S32, .f32⟩ : BufTy).Contents (Elt F)),
    nullary main_cst_23 (constant S_ .f32 0x3F800000#32),
    unary main_cst_23 main_v99 (broadcastInDim S32 ![] bcast_S_S32 : (⟨S_, .f32⟩ : BufTy).Contents (Elt F) → (⟨S32, .f32⟩ : BufTy).Contents (Elt F)),
    binary main_v98 main_v99 main_v100 (maximumf : (⟨S32, .f32⟩ : BufTy).Contents (Elt F) → (⟨S32, .f32⟩ : BufTy).Contents (Elt F) → (⟨S32, .f32⟩ : BufTy).Contents (Elt F)),
    unary main_v100 main_v101 (broadcastInDim S32x1 ![0] bcast_S32_S32x1_0 : (⟨S32, .f32⟩ : BufTy).Contents (Elt F) → (⟨S32x1, .f32⟩ : BufTy).Contents (Elt F)),
    unary main_v101 main_v102 (broadcastInDim S32x128 ![0, 1] bcast_S32x1_S32x128_0_1 : (⟨S32x1, .f32⟩ : BufTy).Contents (Elt F) → (⟨S32x128, .f32⟩ : BufTy).Contents (Elt F)),
    binary main_v94 main_v102 main_v103 (Host.divf : (⟨S32x128, .f32⟩ : BufTy).Contents (Elt F) → (⟨S32x128, .f32⟩ : BufTy).Contents (Elt F) → (⟨S32x128, .f32⟩ : BufTy).Contents (Elt F)),
    binary main_v103 main_arg7 main_v104 ((fun l r => Host.dotGeneral dot_S32x128_S128x64_S32x64_1_0_0_1_n_n none l r) : (⟨S32x128, .f32⟩ : BufTy).Contents (Elt F) → (⟨S128x64, .f32⟩ : BufTy).Contents (Elt F) → (⟨S32x64, .f32⟩ : BufTy).Contents (Elt F)),
    unary main_arg8 main_v105 (broadcastInDim S1x64 ![1] bcast_S64_S1x64_1 : (⟨S64, .f32⟩ : BufTy).Contents (Elt F) → (⟨S1x64, .f32⟩ : BufTy).Contents (Elt F)),
    unary main_v105 main_v106 (broadcastInDim S32x64 ![0, 1] bcast_S1x64_S32x64_0_1 : (⟨S1x64, .f32⟩ : BufTy).Contents (Elt F) → (⟨S32x64, .f32⟩ : BufTy).Contents (Elt F)),
    binary main_v104 main_v106 main_v107 (addf : (⟨S32x64, .f32⟩ : BufTy).Contents (Elt F) → (⟨S32x64, .f32⟩ : BufTy).Contents (Elt F) → (⟨S32x64, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub ..⟩

set_option maxRecDepth 8192 in
set_option maxHeartbeats 56800000 in
/-- Every weakly fair execution of the reference terminates with the result buffer at the whole network of the
    arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v107) = Cert.Gcn.forward (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v107).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl)⟩)
    (run_seq scopedRefs_eq scopedSems_eq defs main (fun _ => ops) main_eq (fun _ => ops_sub) m ρ)

end Cert.Gcn.Ref

end
-- ==== Proof.Claims.lean ====
/-
  The five claims.

  The kernel program and the reference compute the same network. The kernel's three matrix products run as
  launches over blocks of rows (their operands narrowed to a shorter float format first, which over the extended
  reals changes nothing) and so do its two bias-and-positive-part steps; gathers, scatter-adds, the degree
  normalisation and the pooling are host operations in both programs, the same operations in the same order. Block
  by block each launch leaves in its result array exactly what the reference's whole-array operation gives, so both
  result buffers end at one function, `forward`, of the argument arrays — entry by entry the same sums of the same
  products in the same order, so no law of arithmetic and no finiteness of the inputs is used. The frames are the
  runs with the result dropped; the idealized kernel is the kernel's own text read over the extended reals, so
  there is nothing to preserve.
-/
import proofs.«173079_j13039520711474_1_alg».proof.Defs
import proofs.«173079_j13039520711474_1_alg».proof.Proof.Gen.Kernel.Frame
import proofs.«173079_j13039520711474_1_alg».proof.Proof.Gen.KernelIdeal.Frame
import proofs.«173079_j13039520711474_1_alg».proof.Proof.Gen.Pre_finite_inputs
import proofs.«173079_j13039520711474_1_alg».proof.Proof.LaunchValue
import proofs.«173079_j13039520711474_1_alg».proof.Proof.Chain
import proofs.«173079_j13039520711474_1_alg».proof.Proof.RefRun

noncomputable section

namespace Cert.Proof.GcnClaims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.Gcn.Ref.run (F := Ideal) m ρ)

/-- The idealization rewrote no operation. -/
theorem preserves : Cert.preserves_Kernel_KernelIdeal := trivial

/-- Both programs end with the result buffer at `forward` of the arguments, which agree. -/
theorem algebraic : Cert.algebraic_KernelIdeal_ReferenceIdeal := by
  intro m ρ m' ρ' _ hagree
  refine ⟨fun c => Cert.Gcn.forward (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun r h c => ⟨(h c).1.trans (Cert.Gcn.Chain.result m ρ c), (h c).2⟩)
      (Cert.Gcn.Launch.run (F := Ideal) m ρ)
  · refine (θ_run Cert.ReferenceIdeal.defs _ _).mono (fun _ h c => ⟨(h c).1.trans ?_, (h c).2⟩)
      (Cert.Gcn.Ref.run (F := Ideal) m' ρ')
    obtain ⟨e0, e1, e2, e3, e4, e5, e6, e7, e8⟩ := hagree c
    rw [e0, e1, e2, e3, e4, e5, e6, e7, e8]

end Cert.Proof.GcnClaims

end
-- ==== Proof.lean ====
/-
  `Cert.Claim` for a two-layer graph convolution with mean pooling and a linear read-out: a program of five kernel
  launches among host operations against a reference of host operations only. Both end with the result at one
  function of the argument arrays (Proof/Model.lean `forward`): the kernel side is read off its run boundary by
  boundary (Proof/Chain.lean over Proof/Tile0 … Tile4 and Proof/Stretches.lean), the reference side off its run
  (Proof/RefRun.lean); Proof/Claims.lean states the five claims.
-/
import proofs.«173079_j13039520711474_1_alg».proof.Defs
import proofs.«173079_j13039520711474_1_alg».proof.Proof.Gen.Kernel
import proofs.«173079_j13039520711474_1_alg».proof.Proof.Gen.KernelIdeal
import proofs.«173079_j13039520711474_1_alg».proof.Proof.Gen.ReferenceIdeal
import proofs.«173079_j13039520711474_1_alg».proof.Proof.Gen.Pre_finite_inputs
import proofs.«173079_j13039520711474_1_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    GcnClaims.frame_k, GcnClaims.frame_ki, GcnClaims.frame_ri, GcnClaims.preserves, GcnClaims.algebraic⟩

end Cert.Proof

end
